-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x4096 : Shape := ⟨3, ![2048, 1, 4096]⟩
abbrev S1024 : Shape := ⟨1, ![1024]⟩
abbrev S16x4096x64 : Shape := ⟨3, ![16, 4096, 64]⟩
abbrev S64x4096x16 : Shape := ⟨3, ![64, 4096, 16]⟩
abbrev S_ : Shape := ⟨0, ![]⟩

class Facts : Prop where
  bcast_S_S2048x1x4096 : S_.BroadcastsInDim S2048x1x4096 (![] : Fin 0 → Fin S2048x1x4096.rank)
  reducesTo_S2048x1x4096_S_d0_1_2 : S2048x1x4096.ReducesTo [0, 1, 2] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_
  bcast_S_S64x4096x16 : S_.BroadcastsInDim S64x4096x16 (![] : Fin 0 → Fin S64x4096x16.rank)
  reducesTo_S64x4096x16_S_d0_1_2 : S64x4096x16.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_arg2 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .slt main_arg1 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  let main_c_7 : IVec S_ 32 := constantI S_ 32 0#32
  let main_v21 : IVec S1024 32 := broadcastInDim S1024 ![] bcast_S_S1024 main_c_7
  let main_v22 : IVec S1024 1 := cmpi .sge main_arg2 main_v21
  let main_c_8 : IVec S_ 32 := constantI S_ 32 64#32
  let main_v23 : IVec S1024 32 := broadcastInDim S1024 ![] bcast_S_S1024 main_c_8
  let main_v24 : IVec S1024 1 := cmpi .slt main_arg2 main_v23
  let main_v25 : IVec S1024 1 := andi main_v22 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v20 main_v26
  main_v27

def fn {F : FTy → Type} [FloatOps F] (main_arg0 : FVec F S2048x1x4096 .f32) (main_arg1 : IVec S1024 32) (main_arg2 : IVec S1024 32) (main_arg3 : FVec F S16x4096x64 .f32) (main_arg4 : FVec F S64x4096x16 .f32) : IVec S_ 1 :=
  let main_v0 : FVec F S2048x1x4096 .f32 := Host.absf main_arg0
  let main_cst : FVec F S_ .f32 := constant S_ .f32 0x7F800000#32
  let main_v1 : FVec F S2048x1x4096 .f32 := broadcastInDim S2048x1x4096 ![] bcast_S_S2048x1x4096 main_cst
  let main_v2 : IVec S2048x1x4096 1 := cmpf .olt main_v0 main_v1
  let main_c : IVec S_ 1 := constantI S_ 1 1#1
  let main_v3 : IVec S_ 1 := (fun x v => Host.reduce IntOp.andi x v reducesTo_S2048x1x4096_S_d0_1_2 h_S_) main_v2 main_c
  let main_v4 : FVec F S16x4096x64 .f32 := Host.absf main_arg3
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S64x4096x16 .f32 := Host.absf main_arg4
  let main_cst_2 : FVec F S_ .f32 := constant S_ .f32 0x7F800000#32
  let main_v10 : FVec F S64x4096x16 .f32 := broadcastInDim S64x4096x16 ![] bcast_S_S64x4096x16 main_cst_2
  let main_v11 : IVec S64x4096x16 1 := cmpf .olt main_v9 main_v10
  let main_c_3 : IVec S_ 1 := constantI S_ 1 1#1
  let main_v12 : IVec S_ 1 := (fun x v => Host.reduce IntOp.andi x v reducesTo_S64x4096x16_S_d0_1_2 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg1 main_v14
  let main_c_5 : IVec S_ 32 := constantI S_ 32 16#32
  fn_part1 (F := F) main_arg1 main_arg2 main_v13 main_v15 main_c_5
-- ==== Kernel.lean ====
abbrev S2048x1x4096 : Shape := ⟨3, ![2048, 1, 4096]⟩
abbrev S1024 : Shape := ⟨1, ![1024]⟩
abbrev S16x4096x64 : Shape := ⟨3, ![16, 4096, 64]⟩
abbrev S64x4096x16 : Shape := ⟨3, ![64, 4096, 16]⟩
abbrev S2048x4096 : Shape := ⟨2, ![2048, 4096]⟩
abbrev S2048 : Shape := ⟨1, ![2048]⟩
abbrev S8x1x256 : Shape := ⟨3, ![8, 1, 256]⟩
abbrev S4096x16x64 : Shape := ⟨3, ![4096, 16, 64]⟩
abbrev S4096x1024 : Shape := ⟨2, ![4096, 1024]⟩
abbrev S4096x64x16 : Shape := ⟨3, ![4096, 64, 16]⟩
abbrev S1x4096x1024 : Shape := ⟨3, ![1, 4096, 1024]⟩
abbrev S2x4096x1024 : Shape := ⟨3, ![2, 4096, 1024]⟩
abbrev S2048x64 : Shape := ⟨2, ![2048, 64]⟩
abbrev S1x1x256 : Shape := ⟨3, ![1, 1, 256]⟩
abbrev S256x4096 : Shape := ⟨2, ![256, 4096]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩
abbrev S1024x64 : Shape := ⟨2, ![1024, 64]⟩
abbrev S1024x16 : Shape := ⟨2, ![1024, 16]⟩
abbrev S1024x1x64 : Shape := ⟨3, ![1024, 1, 64]⟩
abbrev S1024x1x16 : Shape := ⟨3, ![1024, 1, 16]⟩

abbrev nBuf : Space → Nat
  | .hbm => 22
  | .vmem => 8
  | .smem => 0
  | _ => 0

abbrev bufTy : (tb : Table) → Fin (tcTables nBuf tb) → BufTy
  | .hbm, ⟨0, _⟩ => ⟨S2048x1x4096, .f32⟩
  | .hbm, ⟨1, _⟩ => ⟨S1024, .i32⟩
  | .hbm, ⟨2, _⟩ => ⟨S1024, .i32⟩
  | .hbm, ⟨3, _⟩ => ⟨S16x4096x64, .f32⟩
  | .hbm, ⟨4, _⟩ => ⟨S64x4096x16, .f32⟩
  | .hbm, ⟨5, _⟩ => ⟨S2048x4096, .f32⟩
  | .hbm, ⟨6, _⟩ => ⟨S2048, .i32⟩
  | .hbm, ⟨7, _⟩ => ⟨S8x1x256, .i32⟩
  | .hbm, ⟨8, _⟩ => ⟨S4096x16x64, .f32⟩
  | .hbm, ⟨9, _⟩ => ⟨S4096x1024, .f32⟩
  | .hbm, ⟨10, _⟩ => ⟨S4096x1024, .bf16⟩
  | .hbm, ⟨11, _⟩ => ⟨S4096x64x16, .f32⟩
  | .hbm, ⟨12, _⟩ => ⟨S4096x1024, .f32⟩
  | .hbm, ⟨13, _⟩ => ⟨S4096x1024, .bf16⟩
  | .hbm, ⟨14, _⟩ => ⟨S1x4096x1024, .bf16⟩
  | .hbm, ⟨15, _⟩ => ⟨S1x4096x1024, .bf16⟩
  | .hbm, ⟨16, _⟩ => ⟨S2x4096x1024, .bf16⟩
  | .hbm, ⟨17, _⟩ => ⟨S2048x64, .f32⟩
  | .hbm, ⟨18, _⟩ => ⟨S1024x64, .f32⟩
  | .hbm, ⟨19, _⟩ => ⟨S1024x16, .f32⟩
  | .hbm, ⟨20, _⟩ => ⟨S1024x1x64, .f32⟩
  | .hbm, ⟨21, _⟩ => ⟨S1024x1x16, .f32⟩
  | .local _ .vmem, ⟨0, _⟩ => ⟨S1x1x256, .i32⟩
  | .local _ .vmem, ⟨1, _⟩ => ⟨S1x1x256, .i32⟩
  | .local _ .vmem, ⟨2, _⟩ => ⟨S256x4096, .f32⟩
  | .local _ .vmem, ⟨3, _⟩ => ⟨S256x4096, .f32⟩
  | .local _ .vmem, ⟨4, _⟩ => ⟨S1x4096x1024, .bf16⟩
  | .local _ .vmem, ⟨5, _⟩ => ⟨S1x4096x1024, .bf16⟩
  | .local _ .vmem, ⟨6, _⟩ => ⟨S256x64, .f32⟩
  | .local _ .vmem, ⟨7, _⟩ => ⟨S256x64, .f32⟩
  | _, _ => ⟨S2048x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x1x4096_S2048x4096 : S2048x1x4096.ShapeCasts S2048x4096
  concatenates_S1024_S1024_S2048_d0 : Shape.Concatenates [S1024, S1024] S2048 0
  shapeCasts_S2048_S8x1x256 : S2048.ShapeCasts S8x1x256
  transposes_S16x4096x64_S4096x16x64_1_0_2 : S16x4096x64.Transposes [1, 0, 2] S4096x16x64
  shapeCasts_S4096x16x64_S4096x1024 : S4096x16x64.ShapeCasts S4096x1024
  bitsLt_bf16_f32 : FTy.bits .bf16 < FTy.bits .f32
  transposes_S64x4096x16_S4096x64x16_1_0_2 : S64x4096x16.Transposes [1, 0, 2] S4096x64x16
  shapeCasts_S4096x64x16_S4096x1024 : S4096x64x16.ShapeCasts S4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  iota_S256x1024_d1_w32 : S256x1024.Iotas .tc 32 [1]
  shapeCasts_S256_S256x1 : S256.ShapeCasts S256x1
  broadcasts_S256x1_S256x1024 : S256x1.Broadcasts S256x1024
  iota_S1024x64_d0_w32 : S1024x64.Iotas .tc 32 [0]
  iota_S1024x64_d1_w32 : S1024x64.Iotas .tc 32 [1]
  natLt_1_32 : 1 < 32
  inb_S256x64_S256x64_0_0 : ∀ a, (![0, 0] : Fin 2 → Nat) a + S256x64.size a ≤ S256x64.size a
  h_S256x64 : 0 < S256x64.numel
  slices_S2048x64_S1024x64_0_0 : S2048x64.Slices ![0, 0] S1024x64
  slices_S2048x64_S1024x16_1024_0 : S2048x64.Slices ![1024, 0] S1024x16
  bcast_S1024x64_S1024x1x64_0_2 : S1024x64.BroadcastsInDim S1024x1x64 (![0, 2] : Fin 2 → Fin S1024x1x64.rank)
  bcast_S1024x16_S1024x1x16_0_2 : S1024x16.BroadcastsInDim S1024x1x16 (![0, 2] : Fin 2 → Fin S1024x1x16.rank)
  dot_S256x4096_S4096x1024_S256x1024_1_0_0_1_n_n_wf : DotDims.WF S256x4096 S4096x1024 S256x1024 [1] [0] [0] [1] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S8x1x256.size a
  hwx0_0 : ∀ i : grid0.Coords, EltTy.bits .i32 = 32 ∨ (Rect.block (s := S8x1x256) S1x1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .f32 = 32 ∨ (Rect.block (s := S2048x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1024.size a ≤ S2x4096x1024.size a
  hwx0_2 : ∀ i : grid0.Coords, EltTy.bits .bf16 = 32 ∨ (Rect.block (s := S2x4096x1024) S1x4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S2048x64.size a
  hwx0_3 : ∀ i : grid0.Coords, EltTy.bits .f32 = 32 ∨ (Rect.block (s := S2048x64) S256x64.size (cc0_transform_3 i) (hinb0_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v2) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1x4096 : Shape := ⟨3, ![2048, 1, 4096]⟩
abbrev S1024 : Shape := ⟨1, ![1024]⟩
abbrev S16x4096x64 : Shape := ⟨3, ![16, 4096, 64]⟩
abbrev S64x4096x16 : Shape := ⟨3, ![64, 4096, 16]⟩
abbrev S1024x1x4096 : Shape := ⟨3, ![1024, 1, 4096]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x4096x64 : Shape := ⟨3, ![1024, 4096, 64]⟩
abbrev S1024x4096x16 : Shape := ⟨3, ![1024, 4096, 16]⟩
abbrev S1024x1x64 : Shape := ⟨3, ![1024, 1, 64]⟩
abbrev S1024x1x16 : Shape := ⟨3, ![1024, 1, 16]⟩

abbrev nBuf : Space → Nat
  | .hbm => 55
  | .vmem => 0
  | .smem => 0
  | _ => 0

abbrev bufTy : (tb : Table) → Fin (tcTables nBuf tb) → BufTy
  | .hbm, ⟨0, _⟩ => ⟨S2048x1x4096, .f32⟩
  | .hbm, ⟨1, _⟩ => ⟨S1024, .i32⟩
  | .hbm, ⟨2, _⟩ => ⟨S1024, .i32⟩
  | .hbm, ⟨3, _⟩ => ⟨S16x4096x64, .f32⟩
  | .hbm, ⟨4, _⟩ => ⟨S64x4096x16, .f32⟩
  | .hbm, ⟨5, _⟩ => ⟨S1024x1x4096, .f32⟩
  | .hbm, ⟨6, _⟩ => ⟨S1024x1x4096, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024x4096x64, .f32⟩
  | .hbm, ⟨26, _⟩ => ⟨S1024x4096x64, .i1⟩
  | .hbm, ⟨27, _⟩ => ⟨S_, .f32⟩
  | .hbm, ⟨28, _⟩ => ⟨S1024x4096x64, .f32⟩
  | .hbm, ⟨29, _⟩ => ⟨S1024x4096x64, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S1024x4096x16, .f32⟩
  | .hbm, ⟨49, _⟩ => ⟨S1024x4096x16, .i1⟩
  | .hbm, ⟨50, _⟩ => ⟨S_, .f32⟩
  | .hbm, ⟨51, _⟩ => ⟨S1024x4096x16, .f32⟩
  | .hbm, ⟨52, _⟩ => ⟨S1024x4096x16, .f32⟩
  | .hbm, ⟨53, _⟩ => ⟨S1024x1x64, .f32⟩
  | .hbm, ⟨54, _⟩ => ⟨S1024x1x16, .f32⟩
  | _, _ => ⟨S2048x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩

abbrev nD : Nat := 1
abbrev τ : Topo := Topo.v7x

variable {F : FTy → Type} [FloatOps F]

class Facts₀ : Prop where
  slices_S2048x1x4096_S1024x1x4096_0_0_0 : S2048x1x4096.Slices ![0, 0, 0] S1024x1x4096
  slices_S2048x1x4096_S1024x1x4096_1024_0_0 : S2048x1x4096.Slices ![1024, 0, 0] S1024x1x4096
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x4096x64_0 : S1024.BroadcastsInDim S1024x4096x64 (![0] : Fin 1 → Fin S1024x4096x64.rank)
  bcast_S_S1024x4096x64 : S_.BroadcastsInDim S1024x4096x64 (![] : Fin 0 → Fin S1024x4096x64.rank)
  bcast_S1024_S1024x4096x16_0 : S1024.BroadcastsInDim S1024x4096x16 (![0] : Fin 1 → Fin S1024x4096x16.rank)
  bcast_S_S1024x4096x16 : S_.BroadcastsInDim S1024x4096x16 (![] : Fin 0 → Fin S1024x4096x16.rank)
  gather_S16x4096x64_S1024x1_S1024x4096x64_12_0_n_n_0_1_1409664_wf : GatherDims.WF S16x4096x64 S1024x1 S1024x4096x64 [1, 2] [0] [] [0] [] 1 ![1, 4096, 64]
  gather_S64x4096x16_S1024x1_S1024x4096x16_12_0_n_n_0_1_1409616_wf : GatherDims.WF S64x4096x16 S1024x1 S1024x4096x16 [1, 2] [0] [] [0] [] 1 ![1, 4096, 16]
  dot_S1024x1x4096_S1024x4096x64_S1024x1x64_2_1_1_2_0_0_wf : DotDims.WF S1024x1x4096 S1024x4096x64 S1024x1x64 [2] [1] [1] [2] [0] [0]
  dot_S1024x1x4096_S1024x4096x16_S1024x1x16_2_1_1_2_0_0_wf : DotDims.WF S1024x1x4096 S1024x4096x16 S1024x1x16 [2] [1] [1] [2] [0] [0]

variable [Facts₀]

def gather_S16x4096x64_S1024x1_S1024x4096x64_12_0_n_n_0_1_1409664 : GatherDims S16x4096x64 S1024x1 S1024x4096x64 where
  offsetDims := [1, 2]
  collapsedSliceDims := [0]
  operandBatchingDims := []
  startIndicesBatchingDims := []
  startIndexMap := [0]
  indexVectorDim := 1
  sliceSizes := ![1, 4096, 64]
  wf := gather_S16x4096x64_S1024x1_S1024x4096x64_12_0_n_n_0_1_1409664_wf
def gather_S64x4096x16_S1024x1_S1024x4096x16_12_0_n_n_0_1_1409616 : GatherDims S64x4096x16 S1024x1 S1024x4096x16 where
  offsetDims := [1, 2]
  collapsedSliceDims := [0]
  operandBatchingDims := []
  startIndicesBatchingDims := []
  startIndexMap := [0]
  indexVectorDim := 1
  sliceSizes := ![1, 4096, 16]
  wf := gather_S64x4096x16_S1024x1_S1024x4096x16_12_0_n_n_0_1_1409616_wf
def dot_S1024x1x4096_S1024x4096x64_S1024x1x64_2_1_1_2_0_0 : DotDims S1024x1x4096 S1024x4096x64 S1024x1x64 where
  lhsContracting := [2]
  rhsContracting := [1]
  lhsNonContracting := [1]
  rhsNonContracting := [2]
  lhsBatch := [0]
  rhsBatch := [0]
  wf := dot_S1024x1x4096_S1024x4096x64_S1024x1x64_2_1_1_2_0_0_wf
def dot_S1024x1x4096_S1024x4096x16_S1024x1x16_2_1_1_2_0_0 : DotDims S1024x1x4096 S1024x4096x16 S1024x1x16 where
  lhsContracting := [2]
  rhsContracting := [1]
  lhsNonContracting := [1]
  rhsNonContracting := [2]
  lhsBatch := [0]
  rhsBatch := [0]
  wf := dot_S1024x1x4096_S1024x4096x16_S1024x1x16_2_1_1_2_0_0_wf

class Facts : Prop extends Facts₀ where

variable [Facts]
-- ==== Proof.Spec.lean ====
/-
  The specification both programs are compared through.

  Two batches of 1024 rows share one activation array `x : [2048, 1, 4096]`. Row `R` of the first batch carries an
  adapter id `w R` into a table `A : [16, 4096, 64]`, row `R` of the second an id into a table `[64, 4096, 16]`; the
  result is the row's product with its adapter's matrix,
      y R j = ∑ d, x R d · A (w R) d j.
  An id word is read signed and clamped into the table (`adapter`); under `InRange` the clamp is the identity.

  `rowRaw` is the other arrangement of the same number: the row is multiplied against ALL adapters' matrices laid side
  by side along 1024 lanes (lane `e · r + j` holds column `j` of adapter `e`), the lanes of the wrong adapters are
  zeroed (a lane's adapter is the lane shifted right by `log₂ r`), and the lanes are folded onto their columns (a lane's
  column is the lane masked by `r − 1`). With the id in range exactly one lane survives both tests.
-/
import Idealize.ShloMosaic.PureOps.Ideal
import Idealize.ShloMosaic.Lib.ValueIdx

noncomputable section

namespace Cert.Spec

open Idealize.ShloMosaic Idealize.ShloMosaic.ValueIdx

/-- An adapter id word read signed and clamped into `[0, n − 1]`. -/
def adapter (n : Nat) (hn : 0 < n) (w : BitVec 32) : Fin n := ⟨min w.toInt.toNat (n - 1), by omega⟩

/-- Every id of the batch lies in `[0, n)`. -/
def InRange (n : Nat) (w : (⟨1, ![1024]⟩ : Shape).Idx → BitVec 32) : Prop :=
  ∀ i : Fin 1024, 0 ≤ (w (ix1 i)).toInt ∧ (w (ix1 i)).toInt < (n : Int)

/-- Row `R` of the first batch against its adapter's `[4096, 64]` matrix, column `j`. -/
def yLargeAt (x : (⟨3, ![2048, 1, 4096]⟩ : Shape).Idx → EReal) (w : (⟨1, ![1024]⟩ : Shape).Idx → BitVec 32)
    (A : (⟨3, ![16, 4096, 64]⟩ : Shape).Idx → EReal) (R : Fin 1024) (j : Fin 64) : EReal :=
  ∑ d : Fin 4096, x (ix3 (⟨R.val, by omega⟩ : Fin 2048) (0 : Fin 1) d) * A (ix3 (adapter 16 (by decide) (w (ix1 R))) d j)

/-- Row `R` of the second batch (row `1024 + R` of `x`) against its adapter's `[4096, 16]` matrix, column `j`. -/
def ySmallAt (x : (⟨3, ![2048, 1, 4096]⟩ : Shape).Idx → EReal) (w : (⟨1, ![1024]⟩ : Shape).Idx → BitVec 32)
    (A : (⟨3, ![64, 4096, 16]⟩ : Shape).Idx → EReal) (R : Fin 1024) (j : Fin 16) : EReal :=
  ∑ d : Fin 4096, x (ix3 (⟨1024 + R.val, by omega⟩ : Fin 2048) (0 : Fin 1) d) * A (ix3 (adapter 64 (by decide) (w (ix1 R))) d j)

/-- The first result array, `[1024, 1, 64]`. -/
def yLarge (x : (⟨3, ![2048, 1, 4096]⟩ : Shape).Idx → EReal) (w : (⟨1, ![1024]⟩ : Shape).Idx → BitVec 32)
    (A : (⟨3, ![16, 4096, 64]⟩ : Shape).Idx → EReal) : (⟨3, ![1024, 1, 64]⟩ : Shape).Idx → EReal :=
  fun y => yLargeAt x w A (y 0) (y 2)

/-- The second result array, `[1024, 1, 16]`. -/
def ySmall (x : (⟨3, ![2048, 1, 4096]⟩ : Shape).Idx → EReal) (w : (⟨1, ![1024]⟩ : Shape).Idx → BitVec 32)
    (A : (⟨3, ![64, 4096, 16]⟩ : Shape).Idx → EReal) : (⟨3, ![1024, 1, 16]⟩ : Shape).Idx → EReal :=
  fun y => ySmallAt x w A (y 0) (y 2)

/-- The shift that sends a lane to its adapter: `6` in the first half (64 columns per adapter), `4` in the second. -/
def shiftOf (h : Nat) : BitVec 32 := if h = 0 then 6#32 else 4#32
/-- The mask that sends a lane to its column: `63` in the first half, `15` in the second. -/
def maskOf (h : Nat) : BitVec 32 := if h = 0 then 63#32 else 15#32
/-- A lane's adapter, as a word. -/
def laneGroup (h : Nat) (l : Fin 1024) : BitVec 32 := (BitVec.ofNat 32 l.val).sshiftRight' (shiftOf h)
/-- A lane's column, as a word. -/
def laneCol (h : Nat) (l : Fin 1024) : BitVec 32 := BitVec.ofNat 32 l.val &&& maskOf h

/-- One entry of one row in the side-by-side arrangement: over the 1024 lanes, the row's product with the lane's
    column of the stacked matrix where the lane's adapter is the row's id (else `0`), times `1` where the lane's
    column is `j` (else `0`). `h` is the half (`0` or `1`). -/
def rowRaw (h : Nat) (wid : BitVec 32) (xrow : Fin 4096 → EReal) (wmat : Fin 4096 → Fin 1024 → EReal) (j : Fin 64) : EReal :=
  ∑ l : Fin 1024, (if wid = laneGroup h l then ∑ d : Fin 4096, xrow d * wmat d l else 0)
    * (if laneCol h l = BitVec.ofNat 32 j.val then (1 : EReal) else 0)

end Cert.Spec

end
-- ==== Proof.KOut.lean ====
/-
  The region's output array as one function of the arrays the region is handed: entry (R, j) is row R of the
  flattened activations, its id (entry (R / 256, 0, R % 256) of the blocked ids) and the side-by-side matrix of its
  half R / 1024, in the side-by-side arrangement `Cert.Spec.rowRaw`.
-/
import proofs.«136345_g59459527246470_cont_9to1_m_1123_4_alg».proof.KernelIdeal
import proofs.«136345_g59459527246470_cont_9to1_m_1123_4_alg».proof.Proof.Spec

noncomputable section

namespace Cert.KernelIdeal.KOut

open Cert.KernelIdeal Idealize.ShloMosaic Idealize.ShloMosaic.ValueIdx

/-- Entry (R, j) of the output from the arrays the region is handed: the flattened activations `X`, the ids in eight
    blocks of 256 `W3`, the two side-by-side matrices stacked `Wall`. -/
def outAt (X : S2048x4096.Idx → EReal) (W3 : S8x1x256.Idx → BitVec 32) (Wall : S2x4096x1024.Idx → EReal)
    (R : Fin 2048) (j : Fin 64) : EReal :=
  Cert.Spec.rowRaw (R.val / 1024)
    (W3 (ix3 (⟨R.val / 256, by omega⟩ : Fin 8) (0 : Fin 1) (⟨R.val % 256, by omega⟩ : Fin 256)))
    (fun d => X (ix2 R d))
    (fun d l => Wall (ix3 (⟨R.val / 1024, by omega⟩ : Fin 2) d l)) j

/-- The whole output array. -/
def outArr (X : S2048x4096.Idx → EReal) (W3 : S8x1x256.Idx → BitVec 32) (Wall : S2x4096x1024.Idx → EReal) :
    S2048x64.Idx → EReal := fun y => outAt X W3 Wall (y 0) (y 1)

end Cert.KernelIdeal.KOut

end
-- ==== Proof.KBlocks.lean ====
/-
  The region's output array after the run, as one function of the arrays the region is handed.

  The grid has 2 × 4 points; point (h, i) works on row block p = 4h + i: it reads rows 256p … 256p + 255 of the
  flattened activations, the p-th block of 256 ids, and the half h's side-by-side matrix, and writes rows
  256p … 256p + 255 of the [2048, 64] output. Every output row R is therefore written exactly once, by the point
  with p = R / 256, whose half is h = R / 1024; what is written at (R, j) is the side-by-side arrangement `rowRaw`
  of row R, its id, and the half's matrix.
-/
import proofs.«136345_g59459527246470_cont_9to1_m_1123_4_alg».proof.Proof.FrameKernelIdeal
import proofs.«136345_g59459527246470_cont_9to1_m_1123_4_alg».proof.Proof.KOut
import Idealize.ShloMosaic.Lib.Pipeline.Value
import Idealize.ShloMosaic.Lib.ValueIdx

noncomputable section

namespace Cert.KernelIdeal.KBlocks

open Cert.KernelIdeal Cert.KernelIdeal.Gen Cert.KernelIdeal.GenP Cert.KernelIdeal.KOut
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the eight points: the id block, the activation block and the output block move
    together (block p), the matrix block is the point's half h, and p / 4 = h. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = win0_3.index t (0 : Fin 2) ∧ win0_1.index t (1 : Fin 2) = 0
    ∧ win0_2.index t (0 : Fin 3) = (grid0.coords t (0 : Fin 2)).val ∧ win0_2.index t (1 : Fin 3) = 0 ∧ win0_2.index t (2 : Fin 3) = 0
    ∧ win0_3.index t (1 : Fin 2) = 0 ∧ win0_3.index t (0 : Fin 2) < 8
    ∧ win0_3.index t (0 : Fin 2) / 4 = (grid0.coords t (0 : Fin 2)).val :=
  (by decide +kernel : ∀ t : Fin grid0.N, _)

/-- Every row block is some point's. -/
theorem idx_onto : ∀ q : Fin 8, ∃ t : Fin cfg0.N, win0_3.index t = ![q.val, 0] :=
  (by decide +kernel : ∀ q : Fin 8, ∃ t : Fin grid0.N, win0_3.index t = ![q.val, 0])

/-- The id block at point `t`, entry r, is entry (p, 0, r) of the blocked ids. -/
theorem iblk0_apply (c : Dev nD) (t : Fin cfg0.N) (x : S1x1x256.Idx) (k : S8x1x256.Idx)
    (hk0 : (k 0).val = win0_3.index t (0 : Fin 2) + (x 0).val) (hk1 : (k 1).val = (x 1).val) (hk2 : (k 2).val = (x 2).val) :
    (iblk m c 0 t : Vec Ideal S1x1x256 .i32) x = (V m c main_v2 : S8x1x256.Idx → BitVec 32) k := by
  obtain ⟨e0, e1, e2, -⟩ := idx_facts t
  unfold iblk
  rw [View.read_apply]
  show V m c main_v2 _ = V m c main_v2 _
  congr 1
  funext a
  apply Fin.ext
  match a with
  | ⟨0, _⟩ => show win0_0.index t (0 : Fin 3) * 1 + 1 * (x 0).val = (k 0).val; omega
  | ⟨1, _⟩ => show win0_0.index t (1 : Fin 3) * 1 + 1 * (x 1).val = (k 1).val; omega
  | ⟨2, _⟩ => show win0_0.index t (2 : Fin 3) * 256 + 1 * (x 2).val = (k 2).val; omega

/-- The activation block at point `t`, entry (r, d), is entry (256p + r, d) of the flattened activations. -/
theorem iblk1_apply (c : Dev nD) (t : Fin cfg0.N) (x : S256x4096.Idx) (k : S2048x4096.Idx)
    (hk0 : (k 0).val = win0_3.index t (0 : Fin 2) * 256 + (x 0).val) (hk1 : (k 1).val = (x 1).val) :
    (iblk m c 1 t : Vec Ideal S256x4096 .f32) x = (V m c main_v0 : S2048x4096.Idx → EReal) k := by
  obtain ⟨-, -, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 256 + 1 * (x 0).val = (k 0).val; omega
  | ⟨1, _⟩ => show win0_1.index t (1 : Fin 2) * 4096 + 1 * (x 1).val = (k 1).val; omega

/-- The matrix block at point `t`, entry (0, d, l), is entry (h, d, l) of the stacked matrices. -/
theorem iblk2_apply (c : Dev nD) (t : Fin cfg0.N) (x : S1x4096x1024.Idx) (k : S2x4096x1024.Idx)
    (hk0 : (k 0).val = (grid0.coords t (0 : Fin 2)).val + (x 0).val) (hk1 : (k 1).val = (x 1).val) (hk2 : (k 2).val = (x 2).val) :
    (iblk m c 2 t : Vec Ideal S1x4096x1024 .bf16) x = (V m c main_v11 : S2x4096x1024.Idx → EReal) k := by
  obtain ⟨-, -, -, -, -, e0, e1, e2, -⟩ := idx_facts t
  unfold iblk
  rw [View.read_apply]
  show V m c main_v11 _ = V m c main_v11 _
  congr 1
  funext a
  apply Fin.ext
  match a with
  | ⟨0, _⟩ => show win0_2.index t (0 : Fin 3) * 1 + 1 * (x 0).val = (k 0).val; omega
  | ⟨1, _⟩ => show win0_2.index t (1 : Fin 3) * 4096 + 1 * (x 1).val = (k 1).val; omega
  | ⟨2, _⟩ => show win0_2.index t (2 : Fin 3) * 1024 + 1 * (x 2).val = (k 2).val; omega

/-- The body's arithmetic read at one entry is the side-by-side arrangement of the loaded blocks. -/
def PayAt : Prop := ∀ (i : grid0.Coords) (x1 : Vec Ideal S256x4096 .f32) (x2 : Vec Ideal S1x4096x1024 .bf16)
    (x0 : Vec Ideal S1x1x256 .i32) (r : Fin 256) (j : Fin 64),
    k0_pay1 (F := Ideal) i x1 x2 x0 (ix2 r j)
      = Cert.Spec.rowRaw (i 0).val (x0 (ix3 (0 : Fin 1) (0 : Fin 1) r)) (fun d => x1 (ix2 r d))
          (fun d l => x2 (ix3 (0 : Fin 1) d l)) j

/-- One entry of what point `t` leaves: row r of its blocks in the side-by-side arrangement is entry (256p + r, j) of
    `outAt` of the whole arrays. -/
theorem block_entry (c : Dev nD) (t : Fin cfg0.N) (r : Fin 256) (j : Fin 64) (R : Fin 2048)
    (hR : R.val = win0_3.index t (0 : Fin 2) * 256 + r.val) :
    Cert.Spec.rowRaw (grid0.coords t (0 : Fin 2)).val
        ((iblk m c 0 t : Vec Ideal S1x1x256 .i32) (ix3 (0 : Fin 1) (0 : Fin 1) r))
        (fun d => (iblk m c 1 t : Vec Ideal S256x4096 .f32) (ix2 r d))
        (fun d l => (iblk m c 2 t : Vec Ideal S1x4096x1024 .bf16) (ix3 (0 : Fin 1) d l)) j
      = outAt (V m c main_v0) (V m c main_v2) (V m c main_v11) R j := by
  obtain ⟨-, -, -, -, -, -, -, -, -, hp, hh⟩ := idx_facts t
  have hr : r.val < 256 := r.isLt
  have e1 : (grid0.coords t (0 : Fin 2)).val = R.val / 1024 := by omega
  have e2 : (iblk m c 0 t : Vec Ideal S1x1x256 .i32) (ix3 (0 : Fin 1) (0 : Fin 1) r)
      = (V m c main_v2 : S8x1x256.Idx → BitVec 32) (ix3 (⟨R.val / 256, by omega⟩ : Fin 8) (0 : Fin 1) (⟨R.val % 256, by omega⟩ : Fin 256)) :=
    iblk0_apply m c t _ _ (by show R.val / 256 = _ + 0; omega) rfl (by show R.val % 256 = r.val; omega)
  have e3 : (fun d : Fin 4096 => (iblk m c 1 t : Vec Ideal S256x4096 .f32) (ix2 r d))
      = fun d => (V m c main_v0 : S2048x4096.Idx → EReal) (ix2 R d) :=
    funext fun d => iblk1_apply m c t _ _ (by show R.val = _ * 256 + r.val; omega) rfl
  have e4 : (fun (d : Fin 4096) (l : Fin 1024) => (iblk m c 2 t : Vec Ideal S1x4096x1024 .bf16) (ix3 (0 : Fin 1) d l))
      = fun d l => (V m c main_v11 : S2x4096x1024.Idx → EReal) (ix3 (⟨R.val / 1024, by omega⟩ : Fin 2) d l) :=
    funext fun d => funext fun l => iblk2_apply m c t _ _ (by show R.val / 1024 = _ + 0; omega) rfl rfl
  unfold outAt
  rw [e2, e3, e4, e1]

/-- An index of the output is in point `t`'s block iff each coordinate is in the block's range on its axis. -/
theorem mem_blk3 (t : Fin cfg0.N) (i : S2048x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v12).slice (win0_3.rect t)).set ↔ _
  rw [View.set_slice_whole, Rect.mem_set_unit]
  exact Iff.rfl

/-- Every entry of the output is in the block of the point whose row block is R / 256. -/
theorem cover3 (i : S2048x64.Idx) : ∃ t : Fin cfg0.N, (cfg0.win 3).flush t = true ∧ i ∈ ((cfg0.win 3).blk t).view.set := by
  have hi0 : (i 0).val < 2048 := (i 0).isLt
  have hi1 : (i 1).val < 64 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 64 ≤ (i 1).val ∧ (i 1).val < win0_3.index t (1 : Fin 2) * 64 + 64; omega

variable (hpay : PayAt)
include hpay

/-- WHAT POINT `t` WRITES BACK is block `t` of `outArr` of the arrays the region is handed. -/
theorem flushed3_eq (c : Dev nD) (t : Fin cfg0.N) :
    (dats m 0 c).flushed 3 t = ((cfg0.win 3).blk t).view.read (Elt Ideal)
      (outArr (V m c main_v0) (V m c main_v2) (V m c main_v11)) := by
  show (cfg0.win 3).cut (grid0.coords t) ((dats m 0 c).after 3 t) = _
  rw [after0_3]
  unfold out0_3
  rw [View.canon_unit_zero hz2]
  simp only [View.ld_unit_zero (S := S256x4096) hz2, View.ld_unit_zero (S := S1x4096x1024) hz3, View.ld_unit_zero (S := S1x1x256) hz3]
  obtain ⟨-, -, -, -, -, -, -, -, e31, hp, -⟩ := idx_facts t
  funext y
  obtain ⟨r, j, rfl⟩ : ∃ (r : Fin 256) (j : Fin 64), y = ix2 r j := ⟨y 0, y 1, eq_ix2 y⟩
  refine (hpay (grid0.coords t) _ _ _ r j).trans ?_
  refine (block_entry m c t r j ⟨win0_3.index t (0 : Fin 2) * 256 + r.val, by have := r.isLt; omega⟩ rfl).trans ?_
  rw [View.read_apply]
  show outAt _ _ _ _ _ = outAt _ _ _ ((((cfg0.win 3).blk t).view.emb (ix2 r j)) 0) ((((cfg0.win 3).blk t).view.emb (ix2 r j)) 1)
  have h0 : (((cfg0.win 3).blk t).view.emb (ix2 r j)) 0 = (⟨win0_3.index t (0 : Fin 2) * 256 + r.val, by have := r.isLt; omega⟩ : Fin 2048) := by
    apply Fin.ext
    show win0_3.index t (0 : Fin 2) * 256 + 1 * r.val = win0_3.index t (0 : Fin 2) * 256 + r.val
    omega
  have h1 : (((cfg0.win 3).blk t).view.emb (ix2 r j)) 1 = j := by
    apply Fin.ext
    show win0_3.index t (1 : Fin 2) * 64 + 1 * j.val = j.val
    omega
  rw [h0, h1]

/-- THE OUTPUT ARRAY after the run. -/
theorem final3 (c : Dev nD) :
    (dats m 0 c).arrAt 3 cfg0.N = outArr (V m c main_v0) (V m c main_v2) (V m c main_v11) :=
  (dats m 0 c).arrAt_eq_of_cover 3 _ (fun t _ => flushed3_eq m hpay c t) cover3

end Cert.KernelIdeal.KBlocks

end
-- ==== Proof.KTerm.lean ====
/-
  The kernel program's host side as pure terms of its argument arrays: what the region is handed (the activations
  flattened to `[2048, 4096]`; the two id vectors joined and cut into eight blocks of 256; the two adapter tables each
  re-laid as a `[4096, 1024]` matrix with adapter `e`'s column `j` on lane `e · r + j`, and stacked), and what @main
  returns of the region's `[2048, 64]` output (its first 1024 rows whole; the first 16 columns of its last 1024 rows).
-/
import proofs.«136345_g59459527246470_cont_9to1_m_1123_4_alg».proof.KernelIdeal
import proofs.«136345_g59459527246470_cont_9to1_m_1123_4_alg».proof.Proof.Gen.KernelIdeal

noncomputable section

namespace Cert.KernelIdeal.KTerm

open Idealize.ShloMosaic Cert.KernelIdeal
open Cert.KernelIdeal.Facts₀ Cert.KernelIdeal.Facts

variable {F : FTy → Type} [FloatOps F]

/-- The activations as a matrix. -/
def xFlat (x : FVec F S2048x1x4096 .f32) : FVec F S2048x4096 .f32 :=
  shapeCast S2048x4096 x shapeCasts_S2048x1x4096_S2048x4096

/-- The ids of both batches, joined and cut into blocks of 256. -/
def wids3 (w1 w2 : IVec S1024 32) : IVec S8x1x256 32 :=
  shapeCast S8x1x256 (concatenate S2048 0 [⟨S1024, w1⟩, ⟨S1024, w2⟩] concatenates_S1024_S1024_S2048_d0) shapeCasts_S2048_S8x1x256

/-- The first table side by side: lane `e · 64 + j` of row `d` is `A e d j`. -/
def wLarge (A : FVec F S16x4096x64 .f32) : FVec F S4096x1024 .bf16 :=
  truncf .bf16 (shapeCast S4096x1024 (transpose S4096x16x64 [1, 0, 2] A transposes_S16x4096x64_S4096x16x64_1_0_2)
    shapeCasts_S4096x16x64_S4096x1024) bitsLt_bf16_f32

/-- The second table side by side: lane `e · 16 + j` of row `d` is `A e d j`. -/
def wSmall (A : FVec F S64x4096x16 .f32) : FVec F S4096x1024 .bf16 :=
  truncf .bf16 (shapeCast S4096x1024 (transpose S4096x64x16 [1, 0, 2] A transposes_S64x4096x16_S4096x64x16_1_0_2)
    shapeCasts_S4096x64x16_S4096x1024) bitsLt_bf16_f32

/-- Both, stacked along a new leading axis. -/
def wAll (A3 : FVec F S16x4096x64 .f32) (A4 : FVec F S64x4096x16 .f32) : FVec F S2x4096x1024 .bf16 :=
  concatenate S2x4096x1024 0
    [⟨S1x4096x1024, broadcastInDim S1x4096x1024 ![1, 2] bcast_S4096x1024_S1x4096x1024_1_2 (wLarge A3)⟩,
     ⟨S1x4096x1024, broadcastInDim S1x4096x1024 ![1, 2] bcast_S4096x1024_S1x4096x1024_1_2 (wSmall A4)⟩]
    concatenates_S1x4096x1024_S1x4096x1024_S2x4096x1024_d0

/-- The first result of @main from the region's output. -/
def resLarge (o : FVec F S2048x64 .f32) : FVec F S1024x1x64 .f32 :=
  broadcastInDim S1024x1x64 ![0, 2] bcast_S1024x64_S1024x1x64_0_2
    (extractStridedSlice S1024x64 ![0, 0] o slices_S2048x64_S1024x64_0_0)

/-- The second result of @main from the region's output. -/
def resSmall (o : FVec F S2048x64 .f32) : FVec F S1024x1x16 .f32 :=
  broadcastInDim S1024x1x16 ![0, 2] bcast_S1024x16_S1024x1x16_0_2
    (extractStridedSlice S1024x16 ![1024, 0] o slices_S2048x64_S1024x16_1024_0)

end Cert.KernelIdeal.KTerm

end
-- ==== Proof.KEntry.lean ====
/-
  The host side of the kernel program around its one region, at the ideal instance: the three arrays the region is
  handed are the pure re-layings of the arguments (`KTerm.xFlat`, `KTerm.wids3`, `KTerm.wAll`), and the two results
  @main returns are the pure cuts (`KTerm.resLarge`, `KTerm.resSmall`) of the array the region leaves.
-/
import proofs.«136345_g59459527246470_cont_9to1_m_1123_4_alg».proof.Proof.FrameKernelIdeal
import proofs.«136345_g59459527246470_cont_9to1_m_1123_4_alg».proof.Proof.KTerm
import Idealize.ShloMosaic.Lib.StableHlo.Run
import Idealize.ShloMosaic.PureOps.Ideal

noncomputable section

namespace Cert.KernelIdeal.KEntry

open Cert.KernelIdeal Cert.KernelIdeal.Gen Cert.KernelIdeal.GenP
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds the activations flattened. -/
theorem V_v0 (c : Dev nD) : (V m c main_v0 : S2048x4096.Idx → EReal)
    = KTerm.xFlat (F := Ideal) (m ((c : Thread nD τ).loc main_arg0)) := by
  show StableHlo.after hostOps0 (fun b => m (c, b)) (Proc.devRef .tc main_v0) = _
  after_results
  rfl

/-- The region finds the ids of both batches joined and cut into blocks. -/
theorem V_v2 (c : Dev nD) : (V m c main_v2 : S8x1x256.Idx → BitVec 32)
    = KTerm.wids3 (m ((c : Thread nD τ).loc main_arg1)) (m ((c : Thread nD τ).loc main_arg2)) := by
  show StableHlo.after hostOps0 (fun b => m (c, b)) (Proc.devRef .tc main_v2) = _
  after_results
  rfl

/-- The region finds the two tables side by side, stacked. -/
theorem V_v11 (c : Dev nD) : (V m c main_v11 : S2x4096x1024.Idx → EReal)
    = KTerm.wAll (F := Ideal) (m ((c : Thread nD τ).loc main_arg3)) (m ((c : Thread nD τ).loc main_arg4)) := by
  show StableHlo.after hostOps0 (fun b => m (c, b)) (Proc.devRef .tc main_v11) = _
  after_results
  rfl

/-- The first result behind the host tail: the first 1024 rows of what the region leaves. -/
theorem tail_v15 (c : Dev nD) :
    Pipeline.afterTail₀ cfgs (dats m) 0 (V0 m) [hostOps1] c main_v15
      = KTerm.resLarge (F := Ideal) ((dats m 0 c).arrAt 3 cfg0.N) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v12)
      = (dats m 0 c).arrAt 3 cfg0.N := Pipeline.withArrays_arr spec0 launch0.win.arr_inj c _ _ 3
  rw [e]
  rfl

/-- The second result behind the host tail: the first 16 columns of the last 1024 rows of what the region leaves. -/
theorem tail_v16 (c : Dev nD) :
    Pipeline.afterTail₀ cfgs (dats m) 0 (V0 m) [hostOps1] c main_v16
      = KTerm.resSmall (F := Ideal) ((dats m 0 c).arrAt 3 cfg0.N) := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v12)
      = (dats m 0 c).arrAt 3 cfg0.N := Pipeline.withArrays_arr spec0 launch0.win.arr_inj c _ _ 3
  rw [e]
  rfl

end Cert.KernelIdeal.KEntry

end
-- ==== Proof.KRun.lean ====
/-
  The kernel program's run at the ideal instance, read: each of @main's two results is the host tail's cut of the
  region's output array, which is `KOut.outArr` of the host-side re-layings of the arguments; the arguments end
  unchanged.
-/
import proofs.«136345_g59459527246470_cont_9to1_m_1123_4_alg».proof.Proof.KBlocks
import proofs.«136345_g59459527246470_cont_9to1_m_1123_4_alg».proof.Proof.KEntry

noncomputable section

namespace Cert.KernelIdeal.KRun

open Cert.KernelIdeal Cert.KernelIdeal.Gen Cert.KernelIdeal.GenP
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's output array after the run, from the arguments. -/
theorem out_eq (hpay : KBlocks.PayAt) (c : Dev nD) :
    (dats m 0 c).arrAt 3 cfg0.N
      = KOut.outArr (KTerm.xFlat (F := Ideal) (m ((c : Thread nD τ).loc main_arg0)))
          (KTerm.wids3 (m ((c : Thread nD τ).loc main_arg1)) (m ((c : Thread nD τ).loc main_arg2)))
          (KTerm.wAll (F := Ideal) (m ((c : Thread nD τ).loc main_arg3)) (m ((c : Thread nD τ).loc main_arg4))) := by
  rw [KBlocks.final3 m hpay c, KEntry.V_v0 m c, KEntry.V_v2 m c, KEntry.V_v11 m c]

/-- The run, read. -/
theorem run (hpay : KBlocks.PayAt) :
    θ_run defs (onTc (τ := τ) (main (F := Ideal))) ⟨m, fun _ => 0, ρ⟩ fun r => ∀ c : Dev nD,
      r.2.mem ((c.tc : Thread nD τ).loc main_v15)
        = KTerm.resLarge (F := Ideal) (KOut.outArr (KTerm.xFlat (F := Ideal) (m ((c.tc : Thread nD τ).loc main_arg0)))
            (KTerm.wids3 (m ((c.tc : Thread nD τ).loc main_arg1)) (m ((c.tc : Thread nD τ).loc main_arg2)))
            (KTerm.wAll (F := Ideal) (m ((c.tc : Thread nD τ).loc main_arg3)) (m ((c.tc : Thread nD τ).loc main_arg4))))
      ∧ r.2.mem ((c.tc : Thread nD τ).loc main_v16)
        = KTerm.resSmall (F := Ideal) (KOut.outArr (KTerm.xFlat (F := Ideal) (m ((c.tc : Thread nD τ).loc main_arg0)))
            (KTerm.wids3 (m ((c.tc : Thread nD τ).loc main_arg1)) (m ((c.tc : Thread nD τ).loc main_arg2)))
            (KTerm.wAll (F := Ideal) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v15 (Pipeline.mem_restRefs_of main_v15 (by decide) (by decide))).trans (KEntry.tail_v15 m c)).trans
        (congrArg (KTerm.resLarge (F := Ideal)) (out_eq m hpay c)),
      (((h c).2 main_v16 (Pipeline.mem_restRefs_of main_v16 (by decide) (by decide))).trans (KEntry.tail_v16 m c)).trans
        (congrArg (KTerm.resSmall (F := Ideal)) (out_eq m hpay c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KRun

end
-- ==== Proof.LibOneHot.lean ====
/-
  One-hot selection on the extended reals.

  A row of a one-hot matrix is `1` at one column and `0` elsewhere, and on the extended reals `0 * x = 0`
  for EVERY `x` (also for the infinities) and `x + 0 = x`. So the product of a one-hot row with a column is
  the selected entry, with no finiteness hypothesis; the product of an all-zero row is `0`; and the product of
  a one-hot COLUMN pattern with a column is the sum of the entries the pattern selects. A 0/1 word converted to
  a float is such a `0` or `1`.
-/
import Idealize.ShloMosaic.PureOps.Ideal
import Idealize.ShloMosaic.PureOps.Vector

noncomputable section

namespace Cert.Lib.OneHot

open Idealize.ShloMosaic

/-- A one-hot row against a column: the selected entry. -/
theorem sum_ite_eq_mul {ι : Type} [Fintype ι] [DecidableEq ι] (a : ι) (x : ι → EReal) :
    ∑ k, (if a = k then (1 : EReal) else 0) * x k = x a := by
  simp only [ite_mul, one_mul, zero_mul, Finset.sum_ite_eq, Finset.mem_univ, if_true]

/-- A row that matches no column, against any column: zero. -/
theorem sum_ite_false_mul {ι : Type} [Fintype ι] (p : ι → Prop) [DecidablePred p] (x : ι → EReal)
    (h : ∀ k, ¬ p k) : ∑ k, (if p k then (1 : EReal) else 0) * x k = 0 := by
  refine Finset.sum_eq_zero fun k _ => ?_
  rw [if_neg (h k), zero_mul]

/-- A 0/1 pattern against a column: the sum of the selected entries. -/
theorem sum_ite_mul_eq_sum_filter {ι : Type} [Fintype ι] (p : ι → Prop) [DecidablePred p] (x : ι → EReal) :
    ∑ e, (if p e then (1 : EReal) else 0) * x e = ∑ e ∈ Finset.univ.filter p, x e := by
  rw [Finset.sum_filter]
  refine Finset.sum_congr rfl fun e _ => ?_
  by_cases h : p e
  · rw [if_pos h, if_pos h, one_mul]
  · rw [if_neg h, if_neg h, zero_mul]

/-- The one-bit word of a comparison, zero-extended to 32 bits and read as a signed integer, as an extended
    real: `1` when the bit is set, else `0`. -/
theorem sitofp_extui_bit (b : BitVec 1) :
    (((BitVec.zeroExtend 32 b).toInt : ℝ) : EReal) = if b = 1#1 then (1 : EReal) else 0 := by
  rcases BitVec.eq_zero_or_eq_one b with h | h <;> subst h <;> simp <;> decide

end Cert.Lib.OneHot

end
-- ==== Proof.KPay.lean ====
/-
  The kernel's body, read at one entry of the block it stores.

  The body multiplies a block of 256 rows (4096 wide) by the half's side-by-side matrix `[4096, 1024]`, keeps in row
  `r` only the lanes whose adapter — the lane number shifted right by `log₂` of the adapter width — is the row's id,
  and folds the 1024 lanes onto 64 columns with a 0/1 matrix whose entry `(l, j)` is `1` where lane `l` masked by the
  adapter width minus one is `j`. At the ideal values both products are exact sums and the format changes are the
  identity, so entry `(r, j)` is
      ∑ l, (if id r = l >> s then ∑ d, x r d · W d l else 0) · (if l & m = j then 1 else 0),
  which is `Cert.Spec.rowRaw`. The steps: a plain matrix product into the zero splat read at an index as the sum over
  the contracted coordinate; the shift and the mask selected on the grid half; the row's id read through two casts and
  a broadcast along the lanes; the lane and column numbers read off the two iotas; a select on an equality bit as an
  `if`; an equality bit widened and converted as `1` or `0`.
-/
import proofs.«136345_g59459527246470_cont_9to1_m_1123_4_alg».proof.Proof.Gen.KernelIdeal.Skeleton
import proofs.«136345_g59459527246470_cont_9to1_m_1123_4_alg».proof.Proof.Spec
import proofs.«136345_g59459527246470_cont_9to1_m_1123_4_alg».proof.Proof.LibOneHot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal

/-- A plain product of an `M × K` by a `K × N` matrix accumulated into the zero splat, read at `(a, b)` at the
    ideal values: the sum over the contracted coordinate of the products of the entries. -/
theorem matmul_plain_zero_apply {M K N : Nat} {φ₁ φ₂ : FTy}
    (w : DotDims.WF ⟨2, ![M, K]⟩ ⟨2, ![K, N]⟩ ⟨2, ![M, N]⟩ [1] [0] [0] [1] [] [])
    (lhs : FVec Ideal ⟨2, ![M, K]⟩ φ₁) (rhs : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) none lhs rhs
        (constant (F := Ideal) ⟨2, ![M, N]⟩ .f32 0x00000000#32) (ix2 a b)
      = ∑ c : Fin K, lhs (ix2 a c) * rhs (ix2 c b) := by
  show FloatOps.matmul _ none lhs rhs (constant (F := Ideal) ⟨2, ![M, N]⟩ .f32 0x00000000#32) (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The two words the kernel selects on its grid half -/

/-- The shift the kernel selects (6 in the first half, 4 in the second) is `shiftOf` of the half. -/
theorem shift_eq (i : grid0.Coords) :
    Scalar.select (Scalar.cmpi .eq (BitVec.ofNat 32 (i 0).val) 0#32) (6#32 : BitVec 32) 4#32 = Cert.Spec.shiftOf (i 0).val :=
  select_eq0 (i 0).val (i 0).isLt _ _

/-- The mask the kernel selects (63 in the first half, 15 in the second) is `maskOf` of the half. -/
theorem mask_eq (i : grid0.Coords) :
    Scalar.select (Scalar.cmpi .eq (BitVec.ofNat 32 (i 0).val) 0#32) (63#32 : BitVec 32) 15#32 = Cert.Spec.maskOf (i 0).val :=
  select_eq0 (i 0).val (i 0).isLt _ _

/-- Both shifts are below the word width. -/
theorem shiftOf_lt (h : Nat) : (Cert.Spec.shiftOf h).toNat < 32 := by
  unfold Cert.Spec.shiftOf; split <;> decide

/-- An arithmetic right shift of a lane by `shiftOf` is the plain signed shift: the amount is below the width. -/
theorem shrsi_shiftOf (x : BitVec 32) (h : Nat) :
    IntOp.shrsi .vector x (Cert.Spec.shiftOf h) = x.sshiftRight' (Cert.Spec.shiftOf h) := by
  unfold IntOp.shrsi; rw [if_pos (shiftOf_lt h)]

/-- The equality comparison's bit is set exactly when the words are equal. -/
theorem cmpi_eq_one_iff {w : Nat} (x y : BitVec w) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-! ## Layout operations read at an index -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two words compared, then selected on or read as a float -/

/-- A select on the equality bit of two words is the `if` on their equality. -/
theorem select_cmpi_eq {α : Type} {a a' b b' : BitVec 32} {u u' v v' : α} (ha : a = a') (hb : b = b')
    (hu : u = u') (hv : v = v') :
    Scalar.select (IntOp.cmpi .eq a b) u v = if a' = b' then u' else v' := by
  subst ha hb hu hv
  by_cases h : a = b
  · rw [(cmpi_eq_one_iff a b).mpr h, select_one, if_pos h]
  · rw [eq_zero_of_ne_one (fun h' => h ((cmpi_eq_one_iff a b).mp h')), select_zero, if_neg h]

/-- The equality bit of two words, widened to 32 bits and read as a signed integer, is `1` where they are equal and
    `0` elsewhere. -/
theorem onehot_cmpi_eq {a a' b b' : BitVec 32} (ha : a = a') (hb : b = b') :
    ((((IntOp.cmpi .eq a b).setWidth 32).toInt : ℝ) : EReal) = if a' = b' then (1 : EReal) else 0 := by
  subst ha hb
  refine (Cert.Lib.OneHot.sitofp_extui_bit _).trans ?_
  by_cases h : a = b
  · rw [if_pos ((cmpi_eq_one_iff a b).mpr h), if_pos h]
  · rw [if_neg (fun h' => h ((cmpi_eq_one_iff a b).mp h')), if_neg h]

/-! ## The kernel's body at one index -/

/-- The block the kernel stores, read at row `r` and column `j`: over the 1024 lanes, the row's product with the
    lane's column of the side-by-side matrix where the lane's adapter is the row's id (else `0`), times `1` where the
    lane's column is `j` (else `0`). -/
theorem pay_apply (i : grid0.Coords) (x1 : Vec Ideal S256x4096 .f32) (x2 : Vec Ideal S1x4096x1024 .bf16)
    (x0 : Vec Ideal S1x1x256 .i32) (r : Fin 256) (j : Fin 64) :
    Cert.KernelIdeal.Gen.k0_pay1 (F := Ideal) i x1 x2 x0 (ix2 r j)
      = Cert.Spec.rowRaw (i 0).val (x0 (ix3 (0 : Fin 1) (0 : Fin 1) r)) (fun d => x1 (ix2 r d))
          (fun d l => x2 (ix3 (0 : Fin 1) d l)) j := by
  unfold Cert.KernelIdeal.Gen.k0_pay1
  -- the outer product, into the zero splat: a sum over the 1024 lanes
  refine (matmul_plain_zero_apply _ _ _ r j).trans ?_
  unfold Cert.Spec.rowRaw
  refine Finset.sum_congr rfl fun l _ => ?_
  refine congrArg₂ (· * ·) ?_ ?_
  · -- the masked product at (r, l)
    -- the row's id, through the two casts and the broadcast along the lanes
    have hid : broadcastTo S256x1024 (shapeCast S256x1 (shapeCast S256 x0 Gen.shapeCasts_S1x1x256_S256)
          Gen.shapeCasts_S256_S256x1) Gen.broadcasts_S256x1_S256x1024 (ix2 r l)
        = x0 (ix3 (0 : Fin 1) (0 : Fin 1) r) :=
      (broadcastTo_a1_ab_apply _ _ r l).trans ((shapeCast_a_a1_apply _ _ r 0).trans (shapeCast_11a_a_apply x0 _ r))
    -- the lane's adapter: the lane number shifted right
    have hlane : IntOp.shrsi .vector (iota .tc S256x1024 32 [1] Gen.iota_S256x1024_d1_w32 (ix2 r l))
          (Scalar.select (Scalar.cmpi .eq (BitVec.ofNat 32 (i 0).val) 0#32) (6#32 : BitVec 32) 4#32)
        = Cert.Spec.laneGroup (i 0).val l := by
      rw [shift_eq, shrsi_shiftOf, iota_single_apply]; rfl
    -- the inner product at (r, l): the row against lane l's column
    have hdot : matmul (φ₁ := .bf16) (φ₂ := .bf16) dot_S256x4096_S4096x1024_S256x1024_1_0_0_1_n_n none
          (truncf .bf16 (shapeCast S256x4096 x1 Gen.shapeCasts_S256x4096_S256x4096 : FVec Ideal S256x4096 .f32)
            Gen.bitsLt_bf16_f32)
          (shapeCast S4096x1024 x2 Gen.shapeCasts_S1x4096x1024_S4096x1024 : FVec Ideal S4096x1024 .bf16)
          (constant (F := Ideal) S256x1024 .f32 0x00000000#32) (ix2 r l)
        = ∑ d : Fin 4096, x1 (ix2 r d) * x2 (ix3 (0 : Fin 1) d l) := by
      refine (matmul_plain_zero_apply _ _ _ r l).trans (Finset.sum_congr rfl fun d _ => ?_)
      refine congrArg₂ (· * ·) ?_ (shapeCast_1ab_ab_apply x2 _ d l)
      exact congrFun (shapeCast_self x1 _) (ix2 r d)
    exact select_cmpi_eq hid hlane hdot Ideal.ofBits_zero_f32
  · -- the fold pattern at (l, j)
    have hcol : IntOp.andi (iota .tc S1024x64 32 [0] Gen.iota_S1024x64_d0_w32 (ix2 l j))
          (Scalar.select (Scalar.cmpi .eq (BitVec.ofNat 32 (i 0).val) 0#32) (63#32 : BitVec 32) 15#32)
        = Cert.Spec.laneCol (i 0).val l := by
      rw [mask_eq, iota_single_apply]; rfl
    have hj : iota .tc S1024x64 32 [1] Gen.iota_S1024x64_d1_w32 (ix2 l j) = BitVec.ofNat 32 j.val := by
      rw [iota_single_apply]
    exact onehot_cmpi_eq hcol hj

end Cert.KernelIdeal.KPay

end
-- ==== Proof.KHost.lean ====
/-
  The kernel program's host-side layout operations, read at an index.

  Before its one call the program flattens the activations `[2048, 1, 4096] → [2048, 4096]`, joins the two id vectors
  and cuts them into eight blocks of 256, and re-lays each adapter table as a `[4096, 1024]` matrix (swap the two
  leading axes, merge the two trailing ones, round to the narrower float type) before stacking the two matrices; after
  the call it cuts the `[2048, 64]` output into its upper half and the first 16 columns of its lower half, each with
  a unit axis put back. Every one of these only moves elements (the rounding is the identity at the ideal instance),
  so each result entry is ONE entry of an argument; the theorems below say which, by coordinates.
-/
import proofs.«136345_g59459527246470_cont_9to1_m_1123_4_alg».proof.Proof.KTerm
import Idealize.ShloMosaic.Lib.ValueIdx
import Idealize.ShloMosaic.Lib.Pipeline.Value
import Idealize.ShloMosaic.Lib.ValueLayout

noncomputable section

namespace Cert.KernelIdeal.KHost

open Idealize.ShloMosaic Idealize.ShloMosaic.ValueIdx Cert.KernelIdeal

/-- The activations flattened: entry `(R, d)` of the matrix is entry `(R, 0, d)` of the array, the same
    row-major position. -/
theorem xFlat_apply (x : FVec Ideal S2048x1x4096 .f32) (R : Fin 2048) (d : Fin 4096) :
    KTerm.xFlat (F := Ideal) x (ix2 R d) = x (ix3 R (0 : Fin 1) d) := by
  unfold KTerm.xFlat
  refine shapeCast_apply x _ _ _ ?_
  rw [Shape.rowMajor_val_three, Shape.rowMajor_val_two]
  show (R.val * 1 + 0) * 4096 + d.val = R.val * 4096 + d.val
  omega

/-- The first result: rows `0 … 1023` of the output, all 64 columns, with a unit axis put between. -/
theorem resLarge_apply (o : FVec Ideal S2048x64 .f32) (R : Fin 1024) (j : Fin 64) :
    KTerm.resLarge (F := Ideal) o (ix3 R (0 : Fin 1) j) = o (ix2 (⟨R.val, by omega⟩ : Fin 2048) j) := by
  unfold KTerm.resLarge
  refine (broadcastInDim_apply _ _ _ _ (ix2 R j) fun a => ?_).trans ?_
  · match a with
    | ⟨0, _⟩ => rfl
    | ⟨1, _⟩ => rfl
  · refine extractStridedSlice_apply _ o _ _ _ fun a => ?_
    match a with
    | ⟨0, _⟩ => exact (Nat.zero_add _).symm
    | ⟨1, _⟩ => exact (Nat.zero_add _).symm

/-- The second result: rows `1024 … 2047` of the output, the first 16 columns, with a unit axis put between. -/
theorem resSmall_apply (o : FVec Ideal S2048x64 .f32) (R : Fin 1024) (j : Fin 16) :
    KTerm.resSmall (F := Ideal) o (ix3 R (0 : Fin 1) j) = o (ix2 (⟨1024 + R.val, by omega⟩ : Fin 2048) (⟨j.val, by omega⟩ : Fin 64)) := by
  unfold KTerm.resSmall
  refine (broadcastInDim_apply _ _ _ _ (ix2 R j) fun a => ?_).trans ?_
  · match a with
    | ⟨0, _⟩ => rfl
    | ⟨1, _⟩ => rfl
  · refine extractStridedSlice_apply _ o _ _ _ fun a => ?_
    match a with
    | ⟨0, _⟩ => rfl
    | ⟨1, _⟩ => exact (Nat.zero_add _).symm

/-- Two vectors laid end to end, read at a position: the first vector below its length, the second vector at the
    position less that length from there on. The operation only moves elements, so any element type. -/
theorem concat_vec_apply {α : Type} {A0 A1 N : Nat} (x0 : (⟨1, ![A0]⟩ : Shape).Idx → α)
    (x1 : (⟨1, ![A1]⟩ : Shape).Idx → α)
    (hc : Shape.Concatenates [(⟨1, ![A0]⟩ : Shape), ⟨1, ![A1]⟩] (⟨1, ![N]⟩ : Shape) 0) (hN : N = A0 + A1)
    (i : Fin N) :
    concatenate (⟨1, ![N]⟩ : Shape) 0 [⟨⟨1, ![A0]⟩, x0⟩, ⟨⟨1, ![A1]⟩, x1⟩] hc (ix1 i)
      = if h : i.val < A0 then x0 (ix1 ⟨i.val, h⟩)
        else x1 (ix1 ⟨i.val - A0, by have := i.isLt; omega⟩) := by
  by_cases h : i.val < A0
  · -- the position falls in the first vector
    rw [dif_pos h]
    refine concatenate_pair_apply_left 0 x0 x1 hc (ix1 i) rfl (ix1 ⟨i.val, h⟩) fun b => ?_
    match b with
    | ⟨0, _⟩ => rfl
  · -- the position falls in the second vector: the first vector's length less
    rw [dif_neg h]
    refine concatenate_pair_apply_right 0 x0 x1 hc (ix1 i) rfl rfl
      (ix1 ⟨i.val - A0, by have := i.isLt; omega⟩) (fun b hb => ?_) ?_
    · match b, hb with
      | ⟨0, _⟩, hb => exact absurd rfl hb
    · show i.val - A0 + A0 = i.val
      omega

/-- The joined id vector cut into eight blocks of 256: block `b`, place `r` is position `256 b + r` of the joined
    vector, which lies in the first batch's ids for `b < 4` and in the second batch's (at `256 (b − 4) + r`) otherwise. -/
theorem wids3_apply (w1 w2 : IVec S1024 32) (b : Fin 8) (r : Fin 256) :
    KTerm.wids3 w1 w2 (ix3 b (0 : Fin 1) r)
      = if h : b.val < 4 then w1 (ix1 (⟨b.val * 256 + r.val, by omega⟩ : Fin 1024))
        else w2 (ix1 (⟨(b.val - 4) * 256 + r.val, by omega⟩ : Fin 1024)) := by
  unfold KTerm.wids3
  refine (shapeCast_apply _ _ _ (ix1 (⟨b.val * 256 + r.val, by omega⟩ : Fin 2048)) ?_).trans ?_
  · rw [Shape.rowMajor_val_one, Shape.rowMajor_val_three]
    show b.val * 256 + r.val = (b.val * 1 + 0) * 256 + r.val
    omega
  · refine (concat_vec_apply w1 w2 _ rfl _).trans ?_
    by_cases h : b.val < 4
    · rw [dif_pos h, dif_pos (show b.val * 256 + r.val < 1024 by omega)]
    · rw [dif_neg h, dif_neg (show ¬ b.val * 256 + r.val < 1024 by omega)]
      refine congrArg (fun k : Fin 1024 => w2 (ix1 k)) (Fin.ext ?_)
      show b.val * 256 + r.val - 1024 = (b.val - 4) * 256 + r.val
      omega

/-- Two one-slab arrays stacked along the leading axis, read at an index: the slab the leading coordinate names,
    at the same two trailing coordinates. The operation only moves elements, so any element type. -/
theorem concat_slabs_apply {α : Type} {B C : Nat} (x0 x1 : (⟨3, ![1, B, C]⟩ : Shape).Idx → α)
    (hc : Shape.Concatenates [(⟨3, ![1, B, C]⟩ : Shape), ⟨3, ![1, B, C]⟩] (⟨3, ![2, B, C]⟩ : Shape) 0)
    (h : Fin 2) (i : Fin B) (j : Fin C) :
    concatenate (⟨3, ![2, B, C]⟩ : Shape) 0 [⟨⟨3, ![1, B, C]⟩, x0⟩, ⟨⟨3, ![1, B, C]⟩, x1⟩] hc (ix3 h i j)
      = if h.val = 0 then x0 (ix3 (0 : Fin 1) i j) else x1 (ix3 (0 : Fin 1) i j) := by
  by_cases h0 : h.val = 0
  · -- leading coordinate 0: the first slab
    rw [if_pos h0]
    refine concatenate_pair_apply_left 0 x0 x1 hc (ix3 h i j) rfl (ix3 (0 : Fin 1) i j) fun b => ?_
    match b with
    | ⟨0, _⟩ => exact h0.symm
    | ⟨1, _⟩ => rfl
    | ⟨2, _⟩ => rfl
  · -- leading coordinate 1: the second slab, the first slab's extent 1 less
    rw [if_neg h0]
    refine concatenate_pair_apply_right 0 x0 x1 hc (ix3 h i j) rfl rfl (ix3 (0 : Fin 1) i j) (fun b hb => ?_) ?_
    · match b, hb with
      | ⟨0, _⟩, hb => exact absurd rfl hb
      | ⟨1, _⟩, _ => rfl
      | ⟨2, _⟩, _ => rfl
    · show 0 + 1 = h.val
      have := h.isLt
      omega

/-- The first table side by side: lane `l` of row `d` is column `l % 64` of adapter `l / 64`, row `d`. The rounding
    to the narrower type is the identity at the ideal instance; the reshape keeps the row-major position
    `(16 d + e) 64 + c = 1024 d + (64 e + c)`; the permutation swaps the two leading axes. -/
theorem wLarge_apply (A : FVec Ideal S16x4096x64 .f32) (d : Fin 4096) (l : Fin 1024) :
    KTerm.wLarge (F := Ideal) A (ix2 d l)
      = A (ix3 (⟨l.val / 64, by omega⟩ : Fin 16) d (⟨l.val % 64, by omega⟩ : Fin 64)) := by
  unfold KTerm.wLarge
  refine (truncf_apply (φ := .f32) (ψ := .bf16) _ _ _).trans ?_
  refine (shapeCast_apply _ _ _ (ix3 d (⟨l.val / 64, by omega⟩ : Fin 16) (⟨l.val % 64, by omega⟩ : Fin 64)) ?_).trans ?_
  · rw [Shape.rowMajor_val_three, Shape.rowMajor_val_two]
    show (d.val * 16 + l.val / 64) * 64 + l.val % 64 = d.val * 1024 + l.val
    omega
  · refine transpose_apply _ A _ _ _ fun b => ?_
    match b with
    | ⟨0, _⟩ => rfl
    | ⟨1, _⟩ => rfl
    | ⟨2, _⟩ => rfl

/-- The second table side by side: lane `l` of row `d` is column `l % 16` of adapter `l / 16`, row `d`. -/
theorem wSmall_apply (A : FVec Ideal S64x4096x16 .f32) (d : Fin 4096) (l : Fin 1024) :
    KTerm.wSmall (F := Ideal) A (ix2 d l)
      = A (ix3 (⟨l.val / 16, by omega⟩ : Fin 64) d (⟨l.val % 16, by omega⟩ : Fin 16)) := by
  unfold KTerm.wSmall
  refine (truncf_apply (φ := .f32) (ψ := .bf16) _ _ _).trans ?_
  refine (shapeCast_apply _ _ _ (ix3 d (⟨l.val / 16, by omega⟩ : Fin 64) (⟨l.val % 16, by omega⟩ : Fin 16)) ?_).trans ?_
  · rw [Shape.rowMajor_val_three, Shape.rowMajor_val_two]
    show (d.val * 64 + l.val / 16) * 16 + l.val % 16 = d.val * 1024 + l.val
    omega
  · refine transpose_apply _ A _ _ _ fun b => ?_
    match b with
    | ⟨0, _⟩ => rfl
    | ⟨1, _⟩ => rfl
    | ⟨2, _⟩ => rfl

/-- The stacked matrix: half `0` is the first table side by side, half `1` the second. -/
theorem wAll_apply (A3 : FVec Ideal S16x4096x64 .f32) (A4 : FVec Ideal S64x4096x16 .f32) (h : Fin 2) (d : Fin 4096) (l : Fin 1024) :
    KTerm.wAll (F := Ideal) A3 A4 (ix3 h d l)
      = if h.val = 0 then A3 (ix3 (⟨l.val / 64, by omega⟩ : Fin 16) d (⟨l.val % 64, by omega⟩ : Fin 64))
        else A4 (ix3 (⟨l.val / 16, by omega⟩ : Fin 64) d (⟨l.val % 16, by omega⟩ : Fin 16)) := by
  unfold KTerm.wAll
  refine (concat_slabs_apply _ _ _ h d l).trans ?_
  by_cases h0 : h.val = 0
  · rw [if_pos h0, if_pos h0]
    refine (broadcastInDim_apply _ _ _ _ (ix2 d l) fun a => ?_).trans (wLarge_apply A3 d l)
    match a with
    | ⟨0, _⟩ => rfl
    | ⟨1, _⟩ => rfl
  · rw [if_neg h0, if_neg h0]
    refine (broadcastInDim_apply _ _ _ _ (ix2 d l) fun a => ?_).trans (wSmall_apply A4 d l)
    match a with
    | ⟨0, _⟩ => rfl
    | ⟨1, _⟩ => rfl

end Cert.KernelIdeal.KHost

end
-- ==== Proof.Collapse.lean ====
/-
  With the id in range, exactly one lane survives both tests.

  A lane `l < 1024` is the word `l` itself: it is far below `2³¹`, so its sign bit is clear, the arithmetic
  right shift by `s` is the logical one and reads `l / 2^s`, and the mask by `2^s − 1` reads `l % 2^s`. An id
  `e` in `[0, n)` is the word of the natural number `e`, and clamping it into the table changes nothing. So
  the lane's adapter is the row's id and the lane's column is `j` exactly at the lane `l₀ = e · 2^s + j`
  (division with remainder). Every other lane's summand has a factor `0`, and on the extended reals
  `0 * y = 0` and `y * 0 = 0` for every `y`, the infinities included; the lane `l₀` contributes its
  product times `1`.
-/
import proofs.«136345_g59459527246470_cont_9to1_m_1123_4_alg».proof.Proof.Spec
import proofs.«136345_g59459527246470_cont_9to1_m_1123_4_alg».proof.Proof.LibOneHot

noncomputable section

namespace Cert.Collapse

open Idealize.ShloMosaic Cert.Spec

/-! ## A lane as a word -/

/-- The word of a lane reads back the lane. -/
theorem toNat_lane (l : Fin 1024) : (BitVec.ofNat 32 l.val).toNat = l.val := by
  rw [BitVec.toNat_ofNat]; exact Nat.mod_eq_of_lt (by have := l.isLt; omega)

/-- The word of a lane has its sign bit clear. -/
theorem msb_lane (l : Fin 1024) : (BitVec.ofNat 32 l.val).msb = false := by
  rw [BitVec.msb_eq_false_iff_two_mul_lt, toNat_lane]; have := l.isLt; omega

/-- The word of a column index reads back the index. -/
theorem toNat_col (j : Fin 64) : (BitVec.ofNat 32 j.val).toNat = j.val := by
  rw [BitVec.toNat_ofNat]; exact Nat.mod_eq_of_lt (by have := j.isLt; omega)

/-- First half: a lane's adapter is the lane divided by 64. -/
theorem toNat_laneGroup_zero (l : Fin 1024) : (laneGroup 0 l).toNat = l.val / 64 := by
  unfold laneGroup shiftOf
  rw [if_pos rfl, BitVec.toNat_sshiftRight'_of_msb_false (msb_lane l), toNat_lane,
    show (6#32 : BitVec 32).toNat = 6 from rfl, Nat.shiftRight_eq_div_pow]

/-- Second half: a lane's adapter is the lane divided by 16. -/
theorem toNat_laneGroup_one (l : Fin 1024) : (laneGroup 1 l).toNat = l.val / 16 := by
  unfold laneGroup shiftOf
  rw [if_neg (by decide), BitVec.toNat_sshiftRight'_of_msb_false (msb_lane l), toNat_lane,
    show (4#32 : BitVec 32).toNat = 4 from rfl, Nat.shiftRight_eq_div_pow]

/-- First half: a lane's column is the lane modulo 64. -/
theorem toNat_laneCol_zero (l : Fin 1024) : (laneCol 0 l).toNat = l.val % 64 := by
  unfold laneCol maskOf
  rw [if_pos rfl, BitVec.toNat_and, toNat_lane, show (63#32 : BitVec 32).toNat = 63 from rfl]
  exact Nat.and_two_pow_sub_one_eq_mod l.val 6

/-- Second half: a lane's column is the lane modulo 16. -/
theorem toNat_laneCol_one (l : Fin 1024) : (laneCol 1 l).toNat = l.val % 16 := by
  unfold laneCol maskOf
  rw [if_neg (by decide), BitVec.toNat_and, toNat_lane, show (15#32 : BitVec 32).toNat = 15 from rfl]
  exact Nat.and_two_pow_sub_one_eq_mod l.val 4

/-! ## An id in range -/

/-- A word that reads signed as a nonnegative integer reads unsigned as the same number. -/
theorem toNat_eq_of_nonneg (wid : BitVec 32) (h0 : 0 ≤ wid.toInt) : wid.toNat = wid.toInt.toNat := by
  have h := BitVec.toInt_eq_toNat_cond wid
  have hlt := wid.isLt
  split at h <;> omega

/-- Clamping an id that is already inside the table leaves it unchanged. -/
theorem adapter_val (n : Nat) (hn : 0 < n) (wid : BitVec 32) (h0 : 0 ≤ wid.toInt) (h1 : wid.toInt < (n : Int)) :
    (adapter n hn wid).val = wid.toNat := by
  rw [toNat_eq_of_nonneg wid h0]
  show min wid.toInt.toNat (n - 1) = wid.toInt.toNat
  omega

/-! ## The sum over the lanes -/

/-- If the lane `l₀` passes both tests and is the only lane that does, the side-by-side entry is the row's
    product with column `l₀` of the stacked matrix. -/
theorem rowRaw_eq_of_unique (h : Nat) (wid : BitVec 32) (xrow : Fin 4096 → EReal)
    (wmat : Fin 4096 → Fin 1024 → EReal) (j : Fin 64) (l₀ : Fin 1024)
    (hg : wid = laneGroup h l₀) (hc : laneCol h l₀ = BitVec.ofNat 32 j.val)
    (huniq : ∀ l : Fin 1024, wid = laneGroup h l → laneCol h l = BitVec.ofNat 32 j.val → l = l₀) :
    rowRaw h wid xrow wmat j = ∑ d : Fin 4096, xrow d * wmat d l₀ := by
  unfold rowRaw
  rw [Finset.sum_eq_single l₀]
  · rw [if_pos hg, if_pos hc, mul_one]
  · intro b _ hb
    by_cases h1 : wid = laneGroup h b
    · by_cases h2 : laneCol h b = BitVec.ofNat 32 j.val
      · exact absurd (huniq b h1 h2) hb
      · rw [if_neg h2, mul_zero]
    · rw [if_neg h1, zero_mul]
  · intro hn; exact absurd (Finset.mem_univ _) hn

theorem rowRaw_large (wid : BitVec 32) (h0 : 0 ≤ wid.toInt) (h1 : wid.toInt < 16)
    (xrow : Fin 4096 → EReal) (wmat : Fin 4096 → Fin 1024 → EReal) (j : Fin 64) :
    rowRaw 0 wid xrow wmat j
      = ∑ d : Fin 4096, xrow d * wmat d ⟨(adapter 16 (by decide) wid).val * 64 + j.val,
          by have := (adapter 16 (by decide) wid).isLt; omega⟩ := by
  have he : (adapter 16 (by decide) wid).val = wid.toNat := adapter_val 16 (by decide) wid h0 h1
  have hj := j.isLt
  refine rowRaw_eq_of_unique 0 wid xrow wmat j _ ?_ ?_ ?_
  · apply BitVec.eq_of_toNat_eq
    rw [toNat_laneGroup_zero]
    show wid.toNat = ((adapter 16 (by decide) wid).val * 64 + j.val) / 64
    rw [he]; omega
  · apply BitVec.eq_of_toNat_eq
    rw [toNat_laneCol_zero, toNat_col]
    show ((adapter 16 (by decide) wid).val * 64 + j.val) % 64 = j.val
    rw [he]; omega
  · intro l hg hc
    have hg' := congrArg BitVec.toNat hg
    have hc' := congrArg BitVec.toNat hc
    rw [toNat_laneGroup_zero] at hg'
    rw [toNat_laneCol_zero, toNat_col] at hc'
    apply Fin.ext
    show l.val = (adapter 16 (by decide) wid).val * 64 + j.val
    rw [he]; omega

theorem rowRaw_small (wid : BitVec 32) (h0 : 0 ≤ wid.toInt) (h1 : wid.toInt < 64)
    (xrow : Fin 4096 → EReal) (wmat : Fin 4096 → Fin 1024 → EReal) (j : Fin 64) (hj : j.val < 16) :
    rowRaw 1 wid xrow wmat j
      = ∑ d : Fin 4096, xrow d * wmat d ⟨(adapter 64 (by decide) wid).val * 16 + j.val,
          by have := (adapter 64 (by decide) wid).isLt; omega⟩ := by
  have he : (adapter 64 (by decide) wid).val = wid.toNat := adapter_val 64 (by decide) wid h0 h1
  refine rowRaw_eq_of_unique 1 wid xrow wmat j _ ?_ ?_ ?_
  · apply BitVec.eq_of_toNat_eq
    rw [toNat_laneGroup_one]
    show wid.toNat = ((adapter 64 (by decide) wid).val * 16 + j.val) / 16
    rw [he]; omega
  · apply BitVec.eq_of_toNat_eq
    rw [toNat_laneCol_one, toNat_col]
    show ((adapter 64 (by decide) wid).val * 16 + j.val) % 16 = j.val
    rw [he]; omega
  · intro l hg hc
    have hg' := congrArg BitVec.toNat hg
    have hc' := congrArg BitVec.toNat hc
    rw [toNat_laneGroup_one] at hg'
    rw [toNat_laneCol_one, toNat_col] at hc'
    apply Fin.ext
    show l.val = (adapter 64 (by decide) wid).val * 16 + j.val
    rw [he]; omega

end Cert.Collapse

end
-- ==== Proof.KFinal.lean ====
/-
  The region's output, cut by the host tail, is the specification's result when the ids are in range.

  Entry `(R, j)` of the region's `[2048, 64]` output is the side-by-side arrangement of row `R`: its half is
  `R / 1024`, its id sits at block `R / 256`, position `R % 256` of the blocked ids. The first result keeps rows
  `0 … 1023` whole: such a row lies in half `0`, its block is one of the first four, so its id is the first
  batch's id of the same row. The second result keeps the first 16 columns of rows `1024 + R`: such a row lies
  in half `1`, its block is one of the last four, and block `b`, position `r` is row `(b − 4) · 256 + r = R` of
  the second batch. With the id `e` in range exactly one lane survives, the lane `e · r + j` (`r = 64` or `16`),
  and that lane of the stacked matrix is column `j` of adapter `e`, because `(e · r + j) / r = e` and
  `(e · r + j) % r = j`. The flattened activations read row `R` of the original array.
-/
import proofs.«136345_g59459527246470_cont_9to1_m_1123_4_alg».proof.Proof.KOut
import proofs.«136345_g59459527246470_cont_9to1_m_1123_4_alg».proof.Proof.KTerm
import proofs.«136345_g59459527246470_cont_9to1_m_1123_4_alg».proof.Proof.KHost
import proofs.«136345_g59459527246470_cont_9to1_m_1123_4_alg».proof.Proof.Collapse

noncomputable section

namespace Cert.KernelIdeal.KFinal

open Idealize.ShloMosaic Idealize.ShloMosaic.ValueIdx Cert.KernelIdeal

/-- An entry of the output with the row's half computed: if the row lies in half `h`, the entry is the
    side-by-side arrangement of half `h`. -/
theorem outAt_half (X : S2048x4096.Idx → EReal) (W3 : S8x1x256.Idx → BitVec 32) (Wall : S2x4096x1024.Idx → EReal)
    (R : Fin 2048) (j : Fin 64) (h : Nat) (hlt : h < 2) (hh : R.val / 1024 = h) :
    KOut.outAt X W3 Wall R j
      = Cert.Spec.rowRaw h
          (W3 (ix3 (⟨R.val / 256, by omega⟩ : Fin 8) (0 : Fin 1) (⟨R.val % 256, by omega⟩ : Fin 256)))
          (fun d => X (ix2 R d)) (fun d l => Wall (ix3 (⟨h, hlt⟩ : Fin 2) d l)) j := by
  subst hh
  rfl

theorem resLarge_out (x : FVec Ideal S2048x1x4096 .f32) (w1 w2 : IVec S1024 32) (A3 : FVec Ideal S16x4096x64 .f32) (A4 : FVec Ideal S64x4096x16 .f32)
    (hw : Cert.Spec.InRange 16 w1) :
    KTerm.resLarge (F := Ideal) (KOut.outArr (KTerm.xFlat (F := Ideal) x) (KTerm.wids3 w1 w2) (KTerm.wAll (F := Ideal) A3 A4))
      = Cert.Spec.yLarge x w1 A3 := by
  funext y
  obtain ⟨R, z, j, rfl⟩ : ∃ (R : Fin 1024) (z : Fin 1) (j : Fin 64), y = ix3 R z j := ⟨y 0, y 1, y 2, eq_ix3 y⟩
  obtain rfl : z = 0 := Subsingleton.elim _ _
  have hR := R.isLt
  have hj := j.isLt
  obtain ⟨h0, h1⟩ := hw R
  -- the row's id is the first batch's id of row R
  have hwid : KTerm.wids3 w1 w2 (ix3 (⟨R.val / 256, by omega⟩ : Fin 8) (0 : Fin 1) (⟨R.val % 256, by omega⟩ : Fin 256))
      = w1 (ix1 R) := by
    rw [KHost.wids3_apply, dif_pos (show R.val / 256 < 4 by omega)]
    exact congrArg (fun k => w1 (ix1 k)) (Fin.ext (show R.val / 256 * 256 + R.val % 256 = R.val by omega))
  rw [KHost.resLarge_apply]
  show KOut.outAt _ _ _ (⟨R.val, by omega⟩ : Fin 2048) j = Cert.Spec.yLargeAt x w1 A3 R j
  rw [outAt_half _ _ _ _ j 0 (by decide) (show R.val / 1024 = 0 by omega)]
  refine (congrArg (fun wd => Cert.Spec.rowRaw 0 wd _ _ j) hwid).trans ?_
  rw [Cert.Collapse.rowRaw_large _ h0 h1]
  unfold Cert.Spec.yLargeAt
  refine Finset.sum_congr rfl fun d _ => ?_
  rw [KHost.xFlat_apply, KHost.wAll_apply, if_pos rfl]
  have he := (Cert.Spec.adapter 16 (by decide) (w1 (ix1 R))).isLt
  refine congrArg (fun k => x (ix3 (⟨R.val, by omega⟩ : Fin 2048) (0 : Fin 1) d) * A3 k) ?_
  refine congrArg₂ (fun a b => ix3 a d b) (Fin.ext ?_) (Fin.ext ?_)
  · show ((Cert.Spec.adapter 16 (by decide) (w1 (ix1 R))).val * 64 + j.val) / 64 = _
    omega
  · show ((Cert.Spec.adapter 16 (by decide) (w1 (ix1 R))).val * 64 + j.val) % 64 = _
    omega

theorem resSmall_out (x : FVec Ideal S2048x1x4096 .f32) (w1 w2 : IVec S1024 32) (A3 : FVec Ideal S16x4096x64 .f32) (A4 : FVec Ideal S64x4096x16 .f32)
    (hw : Cert.Spec.InRange 64 w2) :
    KTerm.resSmall (F := Ideal) (KOut.outArr (KTerm.xFlat (F := Ideal) x) (KTerm.wids3 w1 w2) (KTerm.wAll (F := Ideal) A3 A4))
      = Cert.Spec.ySmall x w2 A4 := by
  funext y
  obtain ⟨R, z, j, rfl⟩ : ∃ (R : Fin 1024) (z : Fin 1) (j : Fin 16), y = ix3 R z j := ⟨y 0, y 1, y 2, eq_ix3 y⟩
  obtain rfl : z = 0 := Subsingleton.elim _ _
  have hR := R.isLt
  have hj := j.isLt
  obtain ⟨h0, h1⟩ := hw R
  -- the row's id is the second batch's id of row R
  have hwid : KTerm.wids3 w1 w2 (ix3 (⟨(1024 + R.val) / 256, by omega⟩ : Fin 8) (0 : Fin 1) (⟨(1024 + R.val) % 256, by omega⟩ : Fin 256))
      = w2 (ix1 R) := by
    rw [KHost.wids3_apply, dif_neg (show ¬ (1024 + R.val) / 256 < 4 by omega)]
    exact congrArg (fun k => w2 (ix1 k)) (Fin.ext (show ((1024 + R.val) / 256 - 4) * 256 + (1024 + R.val) % 256 = R.val by omega))
  rw [KHost.resSmall_apply]
  show KOut.outAt _ _ _ (⟨1024 + R.val, by omega⟩ : Fin 2048) (⟨j.val, by omega⟩ : Fin 64) = Cert.Spec.ySmallAt x w2 A4 R j
  rw [outAt_half _ _ _ _ _ 1 (by decide) (show (1024 + R.val) / 1024 = 1 by omega)]
  refine (congrArg (fun wd => Cert.Spec.rowRaw 1 wd _ _ _) hwid).trans ?_
  rw [Cert.Collapse.rowRaw_small _ h0 h1 _ _ _ (show j.val < 16 from hj)]
  unfold Cert.Spec.ySmallAt
  refine Finset.sum_congr rfl fun d _ => ?_
  rw [KHost.xFlat_apply, KHost.wAll_apply, if_neg (by decide)]
  have he := (Cert.Spec.adapter 64 (by decide) (w2 (ix1 R))).isLt
  refine congrArg (fun k => x (ix3 (⟨1024 + R.val, by omega⟩ : Fin 2048) (0 : Fin 1) d) * A4 k) ?_
  refine congrArg₂ (fun a b => ix3 a d b) (Fin.ext ?_) (Fin.ext ?_)
  · show ((Cert.Spec.adapter 64 (by decide) (w2 (ix1 R))).val * 16 + j.val) / 16 = _
    omega
  · show ((Cert.Spec.adapter 64 (by decide) (w2 (ix1 R))).val * 16 + j.val) % 16 = _
    omega

end Cert.KernelIdeal.KFinal

end
-- ==== Proof.RefTerm.lean ====
/-
  The reference's host program as pure terms of its argument arrays: each of the two calls of `take` (normalise a
  negative id by adding the table's length, test the id against `[0, n − 1]`, gather the id's `[4096, r]` matrix with
  the start index clamped, and replace the rows whose test failed by the fill word), and each result as the batched
  product of a slice of `x` with the gathered matrices.
-/
import proofs.«136345_g59459527246470_cont_9to1_m_1123_4_alg».proof.ReferenceIdeal
import proofs.«136345_g59459527246470_cont_9to1_m_1123_4_alg».proof.Proof.Gen.ReferenceIdeal

noncomputable section

namespace Cert.ReferenceIdeal.RTerm

open Idealize.ShloMosaic Cert.ReferenceIdeal
open Cert.ReferenceIdeal.Facts₀ Cert.ReferenceIdeal.Facts

variable {F : FTy → Type} [FloatOps F]

/-- `take` on the first table: `[16, 4096, 64]` at 1024 ids. -/
def takeLarge (A : FVec F S16x4096x64 .f32) (w : IVec S1024 32) : FVec F S1024x4096x64 .f32 :=
  let c : IVec S_ 32 := constantI S_ 32 0#32
  let v0 : IVec S1024 32 := broadcastInDim S1024 ![] bcast_S_S1024 c
  let v1 : IVec S1024 1 := cmpi .slt w v0
  let c_0 : IVec S_ 32 := constantI S_ 32 16#32
  let v2 : IVec S1024 32 := broadcastInDim S1024 ![] bcast_S_S1024 c_0
  let v3 : IVec S1024 32 := addi w v2
  let v4 : IVec S1024 32 := select v1 v3 w
  let v5 : IVec S1024x1 32 := broadcastInDim S1024x1 ![0] bcast_S1024_S1024x1_0 v4
  let c_1 : IVec S1 32 := constantI S1 32 15#32
  let c_2 : IVec S_ 32 := constantI S_ 32 0#32
  let v6 : IVec S1024x1 32 := broadcastInDim S1024x1 ![] bcast_S_S1024x1 c_2
  let v7 : IVec S1024x1 1 := cmpi .sge v5 v6
  let v8 : IVec S1x1 32 := broadcastInDim S1x1 ![1] bcast_S1_S1x1_1 c_1
  let v9 : IVec S1024x1 32 := broadcastInDim S1024x1 ![0, 1] bcast_S1x1_S1024x1_0_1 v8
  let v10 : IVec S1024x1 1 := cmpi .sle v5 v9
  let v11 : IVec S1024x1 1 := andi v7 v10
  let c_3 : IVec S_ 1 := constantI S_ 1 1#1
  let v12 : IVec S1024 1 := Host.reduce IntOp.andi v11 c_3 reducesTo_S1024x1_S1024_d1 h_S_
  let v13 : FVec F S1024x4096x64 .f32 := Host.gather gather_S16x4096x64_S1024x1_S1024x4096x64_12_0_n_n_0_1_1409664 A v5
  let v14 : IVec S1024x4096x64 1 := broadcastInDim S1024x4096x64 ![0] bcast_S1024_S1024x4096x64_0 v12
  let cst : FVec F S_ .f32 := constant S_ .f32 0x7FC00000#32
  let v15 : FVec F S1024x4096x64 .f32 := broadcastInDim S1024x4096x64 ![] bcast_S_S1024x4096x64 cst
  select v14 v13 v15

/-- `take` on the second table: `[64, 4096, 16]` at 1024 ids. -/
def takeSmall (A : FVec F S64x4096x16 .f32) (w : IVec S1024 32) : FVec F S1024x4096x16 .f32 :=
  let c : IVec S_ 32 := constantI S_ 32 0#32
  let v0 : IVec S1024 32 := broadcastInDim S1024 ![] bcast_S_S1024 c
  let v1 : IVec S1024 1 := cmpi .slt w v0
  let c_0 : IVec S_ 32 := constantI S_ 32 64#32
  let v2 : IVec S1024 32 := broadcastInDim S1024 ![] bcast_S_S1024 c_0
  let v3 : IVec S1024 32 := addi w v2
  let v4 : IVec S1024 32 := select v1 v3 w
  let v5 : IVec S1024x1 32 := broadcastInDim S1024x1 ![0] bcast_S1024_S1024x1_0 v4
  let c_1 : IVec S1 32 := constantI S1 32 63#32
  let c_2 : IVec S_ 32 := constantI S_ 32 0#32
  let v6 : IVec S1024x1 32 := broadcastInDim S1024x1 ![] bcast_S_S1024x1 c_2
  let v7 : IVec S1024x1 1 := cmpi .sge v5 v6
  let v8 : IVec S1x1 32 := broadcastInDim S1x1 ![1] bcast_S1_S1x1_1 c_1
  let v9 : IVec S1024x1 32 := broadcastInDim S1024x1 ![0, 1] bcast_S1x1_S1024x1_0_1 v8
  let v10 : IVec S1024x1 1 := cmpi .sle v5 v9
  let v11 : IVec S1024x1 1 := andi v7 v10
  let c_3 : IVec S_ 1 := constantI S_ 1 1#1
  let v12 : IVec S1024 1 := Host.reduce IntOp.andi v11 c_3 reducesTo_S1024x1_S1024_d1 h_S_
  let v13 : FVec F S1024x4096x16 .f32 := Host.gather gather_S64x4096x16_S1024x1_S1024x4096x16_12_0_n_n_0_1_1409616 A v5
  let v14 : IVec S1024x4096x16 1 := broadcastInDim S1024x4096x16 ![0] bcast_S1024_S1024x4096x16_0 v12
  let cst : FVec F S_ .f32 := constant S_ .f32 0x7FC00000#32
  let v15 : FVec F S1024x4096x16 .f32 := broadcastInDim S1024x4096x16 ![] bcast_S_S1024x4096x16 cst
  select v14 v13 v15

/-- The first result: rows `0 … 1023` of `x`, each against its gathered matrix. -/
def outLarge (x : FVec F S2048x1x4096 .f32) (w : IVec S1024 32) (A : FVec F S16x4096x64 .f32) : FVec F S1024x1x64 .f32 :=
  Host.dotGeneral dot_S1024x1x4096_S1024x4096x64_S1024x1x64_2_1_1_2_0_0 none
    (extractStridedSlice S1024x1x4096 ![0, 0, 0] x slices_S2048x1x4096_S1024x1x4096_0_0_0) (takeLarge A w)

/-- The second result: rows `1024 … 2047` of `x`, each against its gathered matrix. -/
def outSmall (x : FVec F S2048x1x4096 .f32) (w : IVec S1024 32) (A : FVec F S64x4096x16 .f32) : FVec F S1024x1x16 .f32 :=
  Host.dotGeneral dot_S1024x1x4096_S1024x4096x16_S1024x1x16_2_1_1_2_0_0 none
    (extractStridedSlice S1024x1x4096 ![1024, 0, 0] x slices_S2048x1x4096_S1024x1x4096_1024_0_0) (takeSmall A w)

end Cert.ReferenceIdeal.RTerm

end
-- ==== Proof.RefRun.lean ====
/-
  The reference program's run. Its entry function is a straight line of fifty operations once the two calls of
  `take` (and the select each of them calls) are unfolded at their call sites: two slices of the activation array,
  twenty-three operations per table lookup, two batched products. Every weakly fair execution therefore
  terminates with each buffer at the fold of the operations over the launch contents; read at the two result
  buffers that fold is the composed term of the argument arrays (`RTerm.outLarge`, `RTerm.outSmall`), and at an
  argument buffer it is the argument, which no operation writes.
-/
import proofs.«136345_g59459527246470_cont_9to1_m_1123_4_alg».proof.Proof.RefTerm
import Idealize.ShloMosaic.Lib.StableHlo.Run

noncomputable section

namespace Cert.ReferenceIdeal.RRun

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F]

/-- The entry function's operations in order, the calls unfolded: the two slices; the first lookup's twenty-three
    (the id compared with zero, the table's length added, the select between the two, the id as a column, its
    test against `[0, n − 1]` reduced along the column, the gather, the test broadcast over the matrices, the fill
    word broadcast, the select between gathered and fill), written into the first call's buffers; the same for the
    second lookup into the second call's; the two batched products. -/
abbrev ops : List (HloOp τ sig (Elt F)) :=
  [ unary main_arg0 main_v0 ((extractStridedSlice S1024x1x4096 ![0, 0, 0] · slices_S2048x1x4096_S1024x1x4096_0_0_0) : (⟨S2048x1x4096, .f32⟩ : BufTy).Contents (Elt F) → (⟨S1024x1x4096, .f32⟩ : BufTy).Contents (Elt F)),
    unary main_arg0 main_v1 ((extractStridedSlice S1024x1x4096 ![1024, 0, 0] · slices_S2048x1x4096_S1024x1x4096_1024_0_0) : (⟨S2048x1x4096, .f32⟩ : BufTy).Contents (Elt F) → (⟨S1024x1x4096, .f32⟩ : BufTy).Contents (Elt F)),
    TRef.nullary main_call0.c (constantI S_ 32 0#32),
    TRef.unary main_call0.c main_call0.v0 (broadcastInDim S1024 ![] bcast_S_S1024),
    TRef.binary (.of main_arg1) main_call0.v0 main_call0.v1 (cmpi .slt),
    TRef.nullary main_call0.c_0 (constantI S_ 32 16#32),
    TRef.unary main_call0.c_0 main_call0.v2 (broadcastInDim S1024 ![] bcast_S_S1024),
    TRef.binary (.of main_arg1) main_call0.v2 main_call0.v3 addi,
    TRef.ternary main_call0.v1 main_call0.v3 (.of main_arg1) main_call0.call0.v0 select,
    TRef.unary main_call0.call0.v0 main_call0.v5 (broadcastInDim S1024x1 ![0] bcast_S1024_S1024x1_0),
    TRef.nullary main_call0.c_1 (constantI S1 32 15#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg3) main_call0.v5 main_call0.v13 (fun x i => Host.gather gather_S16x4096x64_S1024x1_S1024x4096x64_12_0_n_n_0_1_1409664 x i),
    TRef.unary main_call0.v12 main_call0.v14 (broadcastInDim S1024x4096x64 ![0] bcast_S1024_S1024x4096x64_0),
    TRef.nullary main_call0.cst (constant S_ .f32 0x7FC00000#32),
    TRef.unary main_call0.cst main_call0.v15 (broadcastInDim S1024x4096x64 ![] bcast_S_S1024x4096x64),
    TRef.ternary main_call0.v14 main_call0.v13 main_call0.v15 main_call0.v16 select,
    TRef.nullary main_call1.c (constantI S_ 32 0#32),
    TRef.unary main_call1.c main_call1.v0 (broadcastInDim S1024 ![] bcast_S_S1024),
    TRef.binary (.of main_arg2) main_call1.v0 main_call1.v1 (cmpi .slt),
    TRef.nullary main_call1.c_0 (constantI S_ 32 64#32),
    TRef.unary main_call1.c_0 main_call1.v2 (broadcastInDim S1024 ![] bcast_S_S1024),
    TRef.binary (.of main_arg2) main_call1.v2 main_call1.v3 addi,
    TRef.ternary main_call1.v1 main_call1.v3 (.of main_arg2) main_call1.call0.v0 select,
    TRef.unary main_call1.call0.v0 main_call1.v5 (broadcastInDim S1024x1 ![0] bcast_S1024_S1024x1_0),
    TRef.nullary main_call1.c_1 (constantI S1 32 63#32),
    TRef.nullary main_call1.c_2 (constantI S_ 32 0#32),
    TRef.unary main_call1.c_2 main_call1.v6 (broadcastInDim S1024x1 ![] bcast_S_S1024x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1024x1 ![0, 1] bcast_S1x1_S1024x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x1_S1024_d1 h_S_),
    TRef.binary (.of main_arg4) main_call1.v5 main_call1.v13 (fun x i => Host.gather gather_S64x4096x16_S1024x1_S1024x4096x16_12_0_n_n_0_1_1409616 x i),
    TRef.unary main_call1.v12 main_call1.v14 (broadcastInDim S1024x4096x16 ![0] bcast_S1024_S1024x4096x16_0),
    TRef.nullary main_call1.cst (constant S_ .f32 0x7FC00000#32),
    TRef.unary main_call1.cst main_call1.v15 (broadcastInDim S1024x4096x16 ![] bcast_S_S1024x4096x16),
    TRef.ternary main_call1.v14 main_call1.v13 main_call1.v15 main_call1.v16 select,
    binary main_v0 main_v2 main_v4 ((fun l r => Host.dotGeneral dot_S1024x1x4096_S1024x4096x64_S1024x1x64_2_1_1_2_0_0 none l r) : (⟨S1024x1x4096, .f32⟩ : BufTy).Contents (Elt F) → (⟨S1024x4096x64, .f32⟩ : BufTy).Contents (Elt F) → (⟨S1024x1x64, .f32⟩ : BufTy).Contents (Elt F)),
    binary main_v1 main_v3 main_v5 ((fun l r => Host.dotGeneral dot_S1024x1x4096_S1024x4096x16_S1024x1x16_2_1_1_2_0_0 none l r) : (⟨S1024x1x4096, .f32⟩ : BufTy).Contents (Elt F) → (⟨S1024x4096x16, .f32⟩ : BufTy).Contents (Elt F) → (⟨S1024x1x16, .f32⟩ : BufTy).Contents (Elt F)) ]

-- fifty binds re-associated: the rewrite under the chain recurses once per statement
set_option maxRecDepth 1024 in
/-- The entry function is that straight line: the callees' definitions unfolded at their calls and the calls'
    buffer records at their fields, both sides are one chain of steps once sequencing is reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., binary_bufs_sub ..⟩

/-- At the compiled mesh, for any float values, from any memory with zero counters: every weakly fair execution of
    the entry function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.reduce extractStridedSlice in
set_option maxRecDepth 8192 in
/-- The fold at the first result buffer is the composed term: the fold unrolled, each operation's result rewritten
    to its function's value at its own buffer and to what was there at any other (the references told apart by
    computation), what is left differs from the composed term only by the typed references' transports, which are
    the identity at these literal references. The gather, the reduction and the slice stay folded
    meanwhile (the batched product is a field of the float values, which has no body here): the equation never
    looks inside them. -/
theorem out4_eq (V : Valuation τ sig (Elt F)) :
    after ops V (main_v4 : DevRef τ sig)
      = RTerm.outLarge (V (main_arg0 : DevRef τ sig)) (V (main_arg1 : DevRef τ sig)) (V (main_arg3 : DevRef τ sig)) := by
  after_results_simp
  rfl

attribute [local irreducible] Host.gather Host.reduce extractStridedSlice in
set_option maxRecDepth 8192 in
/-- The same at the second result buffer. -/
theorem out5_eq (V : Valuation τ sig (Elt F)) :
    after ops V (main_v5 : DevRef τ sig)
      = RTerm.outSmall (V (main_arg0 : DevRef τ sig)) (V (main_arg2 : DevRef τ sig)) (V (main_arg4 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- The run read at the two results and the five arguments: every weakly fair execution of the entry function
    terminates with the first result at the composed term of the activation array, the first batch's ids and the
    first table, the second result likewise of the second batch's ids and the second table, and every argument as
    it was at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v4) = RTerm.outLarge (m ((c.tc : Thread nD τ).loc main_arg0)) (m ((c.tc : Thread nD τ).loc main_arg1)) (m ((c.tc : Thread nD τ).loc main_arg3))
      ∧ r.2.mem ((c.tc : Thread nD τ).loc main_v5) = RTerm.outSmall (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v4).trans (out4_eq _), (h c main_v5).trans (out5_eq _),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.ReferenceIdeal.RRun

end
-- ==== Proof.RefVal.lean ====
/-
  The reference's two results are the specification, under the id range.

  Each result is a batched product: row `R` of a slice of `x` (rows `0 … 1023`, or `1024 … 2047`) against the
  `[4096, r]` matrix that `take` picked for that row. Read at an entry `(R, 0, j)` the product is the sum over the
  4096 contracted coordinates `d` of `x (row, 0, d) · M (R, d, j)`, so everything rests on what `take`'s result `M` is
  at `(R, d, j)`:

  * the gather reads the table at `(e, d, j)`, where `e` is the row's start index read signed and clamped into the
    table (the table's first axis is indexed and collapsed; the other two are carried over whole);
  * the start index is the id itself once the id is not negative (the "add the length to a negative id" select
    keeps it), so `e` is the specification's clamped adapter;
  * the fill value is never read: with every id in `[0, n − 1]` both comparisons of the range test hold on every
    row, the reduction by `and` from 1 is 1 on every row, and the outer select takes the gathered element.
-/
import proofs.«136345_g59459527246470_cont_9to1_m_1123_4_alg».proof.Proof.RefTerm
import proofs.«136345_g59459527246470_cont_9to1_m_1123_4_alg».proof.Proof.Spec
import Idealize.ShloMosaic.Lib.ValueIdx
import Idealize.ShloMosaic.Lib.Pipeline.Value
import Idealize.ShloMosaic.Lib.ValueLayout
import Idealize.ShloMosaic.Lib.ReduceAll
import Idealize.ShloMosaic.Lib.StackMember
import Idealize.ShloMosaic.PureOps.Ideal.Laws

noncomputable section

namespace Cert.ReferenceIdeal.RVal

open Idealize.ShloMosaic Idealize.ShloMosaic.ValueIdx Cert.ReferenceIdeal

/-! ## A gather of whole matrices out of a table, read at an index -/

section Gather
variable {α : Type}

/-- The dimension numbers of a gather that picks, for each of `R` start indices, one `[C, D]` matrix out of a table
    `[N, C, D]`: the table's first axis is the indexed and collapsed one, the other two are carried over whole. -/
abbrev rowsDims (N C D R : Nat)
    (wf : GatherDims.WF ⟨3, ![N, C, D]⟩ ⟨2, ![R, 1]⟩ ⟨3, ![R, C, D]⟩ [1, 2] [0] [] [0] [] 1 ![1, C, D]) :
    GatherDims ⟨3, ![N, C, D]⟩ ⟨2, ![R, 1]⟩ ⟨3, ![R, C, D]⟩ where
  offsetDims := [1, 2]
  collapsedSliceDims := [0]
  operandBatchingDims := []
  startIndicesBatchingDims := []
  startIndexMap := [0]
  indexVectorDim := 1
  sliceSizes := ![1, C, D]
  wf := wf

/-- That gather read at `(r, c, d)`: the table at `(e, c, d)`, where `e` is the start index of row `r` read signed and
    clamped into `[0, N − 1]`. On the table's first axis the operand index is the clamped start alone (the axis is
    collapsed, so it has no offset); on the other two the start is zero and the offset is the result's coordinate. -/
theorem gather_rows3_apply {N C D R w : Nat}
    (wf : GatherDims.WF ⟨3, ![N, C, D]⟩ ⟨2, ![R, 1]⟩ ⟨3, ![R, C, D]⟩ [1, 2] [0] [] [0] [] 1 ![1, C, D])
    (x : (⟨3, ![N, C, D]⟩ : Shape).Idx → α) (idx : IVec ⟨2, ![R, 1]⟩ w) (r : Fin R) (c : Fin C) (d : Fin D)
    (e : Fin N) (he : e.val = min (idx (ix2 r (0 : Fin 1))).toInt.toNat (N - 1)) :
    Host.gather (rowsDims N C D R wf) x idx (ix3 r c d) = x (ix3 e c d) := by
  unfold Host.gather
  refine congrArg x (funext fun a => Fin.ext ?_)
  show (rowsDims N C D R wf).start (ix3 r c d) idx a + (rowsDims N C D R wf).batchCoord (ix3 r c d) a
      + (rowsDims N C D R wf).offCoord (ix3 r c d) a = (ix3 e c d a).val
  rw [GatherDims.batchCoord_eq_zero _ _ _ List.not_mem_nil, Nat.add_zero]
  match a with
  | ⟨0, h0⟩ =>
    have hm : (⟨0, h0⟩ : Fin 3) ∈ (rowsDims N C D R wf).startIndexMap := List.mem_singleton.mpr rfl
    rw [GatherDims.offCoord_eq_zero _ _ _
      (fun h => ((GatherDims.mem_sKept _ _).mp h).1 (List.mem_singleton.mpr rfl)), Nat.add_zero]
    unfold GatherDims.start
    rw [dif_pos hm]
    have hsi : (rowsDims N C D R wf).siIdx (ix3 r c d)
        ⟨List.idxOf (⟨0, h0⟩ : Fin 3) (rowsDims N C D R wf).startIndexMap,
          List.idxOf_lt_length_iff.2 hm⟩ = ix2 r (0 : Fin 1) := by
      funext b; refine Fin.ext ?_
      match b with
      | ⟨0, _⟩ => rfl
      | ⟨1, _⟩ => rfl
    rw [hsi]
    exact he.symm
  | ⟨1, h1⟩ =>
    have hm : (⟨1, h1⟩ : Fin 3) ∉ (rowsDims N C D R wf).startIndexMap :=
      fun h => absurd (congrArg Fin.val (List.mem_singleton.mp h)) Nat.one_ne_zero
    have hs : (rowsDims N C D R wf).start (ix3 r c d) idx ⟨1, h1⟩ = 0 := by
      unfold GatherDims.start; rw [dif_neg hm]
    rw [hs, Nat.zero_add]
    have hk : (⟨1, h1⟩ : Fin 3) ∈ (rowsDims N C D R wf).sKept :=
      (GatherDims.mem_sKept _ _).mpr ⟨fun h => absurd (congrArg Fin.val (List.mem_singleton.mp h)) Nat.one_ne_zero,
        List.not_mem_nil⟩
    unfold GatherDims.offCoord
    rw [dif_pos hk]
    rfl
  | ⟨2, h2⟩ =>
    have hm : (⟨2, h2⟩ : Fin 3) ∉ (rowsDims N C D R wf).startIndexMap :=
      fun h => absurd (congrArg Fin.val (List.mem_singleton.mp h)) (Nat.succ_ne_zero 1)
    have hs : (rowsDims N C D R wf).start (ix3 r c d) idx ⟨2, h2⟩ = 0 := by
      unfold GatherDims.start; rw [dif_neg hm]
    rw [hs, Nat.zero_add]
    have hk : (⟨2, h2⟩ : Fin 3) ∈ (rowsDims N C D R wf).sKept :=
      (GatherDims.mem_sKept _ _).mpr ⟨fun h => absurd (congrArg Fin.val (List.mem_singleton.mp h)) (Nat.succ_ne_zero 1),
        List.not_mem_nil⟩
    unfold GatherDims.offCoord
    rw [dif_pos hk]
    rfl

end Gather

/-! ## Words: the id's normalisation and its range test -/

section Words

/-- A word whose signed value is not negative is not below zero, so the select that adds the table's length to a
    negative id keeps the word. -/
theorem norm_word (x nn : BitVec 32) (h0 : 0 ≤ x.toInt) :
    Scalar.select (IntOp.cmpi .slt x 0#32) (IntOp.addi x nn) x = x := by
  have hs : x.slt 0#32 = false := by
    refine Bool.eq_false_iff.mpr fun h => ?_
    have h' := BitVec.slt_iff_toInt_lt.mp h
    rw [BitVec.toInt_zero] at h'
    omega
  have hb : IntOp.cmpi .slt x 0#32 = 0#1 := by
    show BitVec.ofBool (x.slt 0#32) = 0#1
    rw [hs]; rfl
  rw [hb, select_zero]

/-- A word whose signed value lies in `[0, hi]` passes both comparisons of the range test. -/
theorem range_word (x hi : BitVec 32) (h0 : 0 ≤ x.toInt) (h1 : x.toInt ≤ hi.toInt) :
    IntOp.andi (IntOp.cmpi .sge x 0#32) (IntOp.cmpi .sle x hi) = 1#1 := by
  have hge : (0#32 : BitVec 32).sle x = true := by
    refine BitVec.sle_iff_toInt_le.mpr ?_
    rw [BitVec.toInt_zero]; exact h0
  have hle : x.sle hi = true := BitVec.sle_iff_toInt_le.mpr h1
  show IntOp.andi (BitVec.ofBool ((0#32 : BitVec 32).sle x)) (BitVec.ofBool (x.sle hi)) = 1#1
  rw [hge, hle]; rfl

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from rfl]
    exact foldl_andi_one f hf l

/-- A reduction by `and` from the constant 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x hx _

end Words

/-! ## The two calls of `take`, read at an index -/

section Take

/-- The ids as the gather's column of start indices: a negative id has the table's length `nn` added. -/
def ids (nn : BitVec 32) (w : IVec S1024 32) : IVec S1024x1 32 :=
  broadcastInDim S1024x1 ![0] Facts₀.bcast_S1024_S1024x1_0
    (select (cmpi .slt w (broadcastInDim S1024 ![] Facts₀.bcast_S_S1024 (constantI S_ 32 0#32)))
      (addi w (broadcastInDim S1024 ![] Facts₀.bcast_S_S1024 (constantI S_ 32 nn))) w)

/-- Per row, whether its start index lies in `[0, hi]`. -/
def okBit (hi : BitVec 32) (v : IVec S1024x1 32) : IVec S1024 1 :=
  Host.reduce IntOp.andi
    (andi (cmpi .sge v (broadcastInDim S1024x1 ![] Facts₀.bcast_S_S1024x1 (constantI S_ 32 0#32)))
      (cmpi .sle v (broadcastInDim S1024x1 ![0, 1] Facts₀.bcast_S1x1_S1024x1_0_1
        (broadcastInDim S1x1 ![1] Facts₀.bcast_S1_S1x1_1 (constantI S1 32 hi)))))
    (constantI S_ 1 1#1) Facts₀.reducesTo_S1024x1_S1024_d1 Facts₀.h_S_

/-- An id that is not negative is its own start index. -/
theorem ids_apply (nn : BitVec 32) (w : IVec S1024 32) (a : Fin 1024) (b : Fin 1) (h0 : 0 ≤ (w (ix1 a)).toInt) :
    ids nn w (ix2 a b) = w (ix1 a) := by
  unfold ids
  refine (broadcastInDim_apply _ _ _ (ix2 a b) (ix1 a) (fun c => match c with | ⟨0, _⟩ => rfl)).trans ?_
  show Scalar.select (IntOp.cmpi .slt (w (ix1 a)) 0#32) (IntOp.addi (w (ix1 a)) nn) (w (ix1 a)) = w (ix1 a)
  exact norm_word _ _ h0

/-- When every start index lies in `[0, hi]` every row passes the test. -/
theorem okBit_eq_one (hi : BitVec 32) (v : IVec S1024x1 32)
    (hv : ∀ i, 0 ≤ (v i).toInt ∧ (v i).toInt ≤ hi.toInt) (R : Fin 1024) : okBit hi v (ix1 R) = 1#1 := by
  unfold okBit
  refine reduce_andi_of_all _ _ _ _ _ (fun i => ?_) rfl
  show IntOp.andi (IntOp.cmpi .sge (v i) 0#32) (IntOp.cmpi .sle (v i) hi) = 1#1
  exact range_word _ _ (hv i).1 (hv i).2

/-- A select whose condition bit is 1 at an index reads its first operand there. -/
theorem select_of_bit {s : Shape} {α : Type} (c : IVec s 1) (a b : s.Idx → α) (i : s.Idx) (h : c i = 1#1) :
    select c a b i = a i := by
  rw [select_apply, h, select_one]

/-- The first call of `take` as one term over the two vectors above. -/
theorem takeLarge_eq (A : FVec Ideal S16x4096x64 .f32) (w : IVec S1024 32) :
    RTerm.takeLarge (F := Ideal) A w
      = select (broadcastInDim S1024x4096x64 ![0] Facts₀.bcast_S1024_S1024x4096x64_0 (okBit 15#32 (ids 16#32 w)))
          (Host.gather gather_S16x4096x64_S1024x1_S1024x4096x64_12_0_n_n_0_1_1409664 A (ids 16#32 w))
          (broadcastInDim S1024x4096x64 ![] Facts₀.bcast_S_S1024x4096x64 (constant (F := Ideal) S_ .f32 0x7FC00000#32)) :=
  rfl

/-- Under the id range the first call of `take` reads, at `(R, k, j)`, the table at the row's adapter. -/
theorem takeLarge_apply (A : FVec Ideal S16x4096x64 .f32) (w : IVec S1024 32) (hw : Cert.Spec.InRange 16 w)
    (R : Fin 1024) (k : Fin 4096) (j : Fin 64) :
    RTerm.takeLarge (F := Ideal) A w (ix3 R k j) = A (ix3 (Cert.Spec.adapter 16 (by decide) (w (ix1 R))) k j) := by
  rw [takeLarge_eq]
  have hid : ∀ (a : Fin 1024) (b : Fin 1), ids 16#32 w (ix2 a b) = w (ix1 a) :=
    fun a b => ids_apply _ _ a b (hw a).1
  have hbit : broadcastInDim S1024x4096x64 ![0] Facts₀.bcast_S1024_S1024x4096x64_0 (okBit 15#32 (ids 16#32 w))
      (ix3 R k j) = 1#1 := by
    refine (broadcastInDim_apply _ _ _ (ix3 R k j) (ix1 R) (fun c => match c with | ⟨0, _⟩ => rfl)).trans ?_
    refine okBit_eq_one _ _ (fun i => ?_) R
    obtain ⟨a, b, rfl⟩ : ∃ (a : Fin 1024) (b : Fin 1), i = ix2 a b := ⟨i 0, i 1, eq_ix2 i⟩
    rw [hid a b]
    have h := hw a
    refine ⟨h.1, ?_⟩
    have h15 : (15#32 : BitVec 32).toInt = 15 := by decide
    rw [h15]
    have := h.2
    omega
  refine (select_of_bit _ _ _ _ hbit).trans ?_
  refine gather_rows3_apply (N := 16) (C := 4096) (D := 64) (R := 1024) Facts₀.gather_S16x4096x64_S1024x1_S1024x4096x64_12_0_n_n_0_1_1409664_wf A (ids 16#32 w) R k j
    (Cert.Spec.adapter 16 (by decide) (w (ix1 R))) ?_
  rw [hid R 0]
  rfl

end Take

section TakeSmall

/-- The second call of `take` as one term over the same two vectors. -/
theorem takeSmall_eq (A : FVec Ideal S64x4096x16 .f32) (w : IVec S1024 32) :
    RTerm.takeSmall (F := Ideal) A w
      = select (broadcastInDim S1024x4096x16 ![0] Facts₀.bcast_S1024_S1024x4096x16_0 (okBit 63#32 (ids 64#32 w)))
          (Host.gather gather_S64x4096x16_S1024x1_S1024x4096x16_12_0_n_n_0_1_1409616 A (ids 64#32 w))
          (broadcastInDim S1024x4096x16 ![] Facts₀.bcast_S_S1024x4096x16 (constant (F := Ideal) S_ .f32 0x7FC00000#32)) :=
  rfl

/-- Under the id range the second call of `take` reads, at `(R, k, j)`, the table at the row's adapter. -/
theorem takeSmall_apply (A : FVec Ideal S64x4096x16 .f32) (w : IVec S1024 32) (hw : Cert.Spec.InRange 64 w)
    (R : Fin 1024) (k : Fin 4096) (j : Fin 16) :
    RTerm.takeSmall (F := Ideal) A w (ix3 R k j) = A (ix3 (Cert.Spec.adapter 64 (by decide) (w (ix1 R))) k j) := by
  rw [takeSmall_eq]
  have hid : ∀ (a : Fin 1024) (b : Fin 1), ids 64#32 w (ix2 a b) = w (ix1 a) :=
    fun a b => ids_apply _ _ a b (hw a).1
  have hbit : broadcastInDim S1024x4096x16 ![0] Facts₀.bcast_S1024_S1024x4096x16_0 (okBit 63#32 (ids 64#32 w))
      (ix3 R k j) = 1#1 := by
    refine (broadcastInDim_apply _ _ _ (ix3 R k j) (ix1 R) (fun c => match c with | ⟨0, _⟩ => rfl)).trans ?_
    refine okBit_eq_one _ _ (fun i => ?_) R
    obtain ⟨a, b, rfl⟩ : ∃ (a : Fin 1024) (b : Fin 1), i = ix2 a b := ⟨i 0, i 1, eq_ix2 i⟩
    rw [hid a b]
    have h := hw a
    refine ⟨h.1, ?_⟩
    have h63 : (63#32 : BitVec 32).toInt = 63 := by decide
    rw [h63]
    have := h.2
    omega
  refine (select_of_bit _ _ _ _ hbit).trans ?_
  refine gather_rows3_apply (N := 64) (C := 4096) (D := 16) (R := 1024) Facts₀.gather_S64x4096x16_S1024x1_S1024x4096x16_12_0_n_n_0_1_1409616_wf A (ids 64#32 w) R k j
    (Cert.Spec.adapter 64 (by decide) (w (ix1 R))) ?_
  rw [hid R 0]
  rfl

end TakeSmall

/-! ## The two results -/

section Out
variable {α : Type}

/-- A rank-3 array cut along its first axis from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

end Out

/-- THE FIRST RESULT: under the id range the reference's batched product of rows `0 … 1023` of `x` with the gathered
    matrices is, entry by entry, the row's product with its adapter's matrix. -/
theorem outLarge_eq (x : FVec Ideal S2048x1x4096 .f32) (w : IVec S1024 32) (A : FVec Ideal S16x4096x64 .f32)
    (hw : Cert.Spec.InRange 16 w) : RTerm.outLarge (F := Ideal) x w A = Cert.Spec.yLarge x w A := by
  funext y
  obtain ⟨R, z, j, rfl⟩ : ∃ (R : Fin 1024) (z : Fin 1) (j : Fin 64), y = ix3 R z j := ⟨y 0, y 1, y 2, eq_ix3 y⟩
  obtain rfl : z = 0 := Subsingleton.elim _ _
  unfold RTerm.outLarge
  refine (StackMember.dotGeneral_stack_apply (G := 1024) (m := 1) (n := 64) (k := 4096)
    Facts₀.dot_S1024x1x4096_S1024x4096x64_S1024x1x64_2_1_1_2_0_0_wf none _ _ R 0 j).trans ?_
  show _ = Cert.Spec.yLargeAt x w A R j
  unfold Cert.Spec.yLargeAt
  refine Finset.sum_congr rfl fun d _ => ?_
  rw [takeLarge_apply A w hw R d j,
    slice3_axis0_apply 0 x Facts₀.slices_S2048x1x4096_S1024x1x4096_0_0_0 R 0 d ⟨R.val, by omega⟩ (Nat.zero_add _).symm]

/-- THE SECOND RESULT: under the id range the reference's batched product of rows `1024 … 2047` of `x` with the
    gathered matrices is, entry by entry, the row's product with its adapter's matrix. -/
theorem outSmall_eq (x : FVec Ideal S2048x1x4096 .f32) (w : IVec S1024 32) (A : FVec Ideal S64x4096x16 .f32)
    (hw : Cert.Spec.InRange 64 w) : RTerm.outSmall (F := Ideal) x w A = Cert.Spec.ySmall x w A := by
  funext y
  obtain ⟨R, z, j, rfl⟩ : ∃ (R : Fin 1024) (z : Fin 1) (j : Fin 16), y = ix3 R z j := ⟨y 0, y 1, y 2, eq_ix3 y⟩
  obtain rfl : z = 0 := Subsingleton.elim _ _
  unfold RTerm.outSmall
  refine (StackMember.dotGeneral_stack_apply (G := 1024) (m := 1) (n := 16) (k := 4096)
    Facts₀.dot_S1024x1x4096_S1024x4096x16_S1024x1x16_2_1_1_2_0_0_wf none _ _ R 0 j).trans ?_
  show _ = Cert.Spec.ySmallAt x w A R j
  unfold Cert.Spec.ySmallAt
  refine Finset.sum_congr rfl fun d _ => ?_
  rw [takeSmall_apply A w hw R d j,
    slice3_axis0_apply 1024 x Facts₀.slices_S2048x1x4096_S1024x1x4096_1024_0_0 R 0 d ⟨1024 + R.val, by omega⟩ rfl]

end Cert.ReferenceIdeal.RVal

end
-- ==== Proof.PreRange.lean ====
/-
  The precondition, read back: every adapter id lies inside its table.

  The precondition is the conjunction of five one-bit words. Three of them test that the float inputs are
  finite and play no part here; the other two are `all (0 ≤ w ∧ w < n)` over the 1024 ids of a batch, with
  `n = 16` for the first batch and `n = 64` for the second. A conjunction of one-bit words is `1` only when
  each of them is; an `and`-reduction over the whole array that comes out `1` met a `1` at every index; and a
  signed comparison word is `1` exactly when the signed readings of its operands compare that way. A scalar
  constant broadcast along the batch reads the constant at every index.
-/
import proofs.«136345_g59459527246470_cont_9to1_m_1123_4_alg».proof.Pre_finite_inputs
import proofs.«136345_g59459527246470_cont_9to1_m_1123_4_alg».proof.Proof.Gen.Pre_finite_inputs
import proofs.«136345_g59459527246470_cont_9to1_m_1123_4_alg».proof.Proof.Spec
import Idealize.ShloMosaic.Lib.ReduceAll
import Idealize.ShloMosaic.Lib.IdealHost
import Idealize.ShloMosaic.Lib.ValueLayout

noncomputable section

namespace Cert.PreRange

open Idealize.ShloMosaic Idealize.ShloMosaic.ValueIdx

/-- The rank-0 shape has exactly one index. -/
private instance : Subsingleton Cert.Pre_finite_inputs.S_.Idx := ⟨fun _ _ => funext fun d => d.elim0⟩

/-- One range test read back: if `all (0 ≤ w ∧ w < hi)` over a batch of ids is `1`, and the bound `hi` reads
    signed as the natural number `n`, then every id of the batch lies in `[0, n)`. -/
private theorem inRange_of_all (w : IVec Cert.Pre_finite_inputs.S1024 32) (hi : BitVec 32) (n : Nat)
    (hn : hi.toInt = (n : Int))
    (hb : Cert.Pre_finite_inputs.S_.BroadcastsInDim Cert.Pre_finite_inputs.S1024
      (![] : Fin 0 → Fin Cert.Pre_finite_inputs.S1024.rank))
    (hr : Cert.Pre_finite_inputs.S1024.ReducesTo [0] Cert.Pre_finite_inputs.S_)
    (hu : 0 < Cert.Pre_finite_inputs.S_.numel)
    (init : IVec Cert.Pre_finite_inputs.S_ 1)
    (e : Host.reduce IntOp.andi
          (andi (cmpi .sge w (broadcastInDim Cert.Pre_finite_inputs.S1024 ![] hb
                    (constantI Cert.Pre_finite_inputs.S_ 32 0#32)))
                (cmpi .slt w (broadcastInDim Cert.Pre_finite_inputs.S1024 ![] hb
                    (constantI Cert.Pre_finite_inputs.S_ 32 hi))))
          init hr hu ix0 = 1#1) :
    Cert.Spec.InRange n w := by
  intro i
  have h1 := Host.reduce_andi_all _ _ hr hu ix0 e (ix1 i)
  obtain ⟨hge, hlt⟩ := IntOp.andi_eq_one.1 h1
  have hge' := IntOp.cmpi_sge.1 hge
  have hlt' := IntOp.cmpi_slt.1 hlt
  rw [broadcastInDim_scalar_apply, constantI_apply] at hge' hlt'
  rw [show (0#32 : BitVec 32).toInt = 0 from by decide] at hge'
  rw [hn] at hlt'
  exact ⟨hge', hlt'⟩

theorem ids_in_range {F : FTy → Type} [FloatOps F]
    (a0 : FVec F Cert.Pre_finite_inputs.S2048x1x4096 .f32) (a1 a2 : IVec Cert.Pre_finite_inputs.S1024 32)
    (a3 : FVec F Cert.Pre_finite_inputs.S16x4096x64 .f32) (a4 : FVec F Cert.Pre_finite_inputs.S64x4096x16 .f32)
    (h : Cert.Pre_finite_inputs.fn (F := F) a0 a1 a2 a3 a4 = fun _ => 1#1) :
    Cert.Spec.InRange 16 a1 ∧ Cert.Spec.InRange 64 a2 := by
  have h0 := congrFun h ix0
  dsimp only [Cert.Pre_finite_inputs.fn, Cert.Pre_finite_inputs.fn_part1] at h0
  -- the outermost conjunction: (floats ∧ first range test) ∧ second range test
  obtain ⟨h01, h2⟩ := IntOp.andi_eq_one.1 h0
  obtain ⟨_, h1⟩ := IntOp.andi_eq_one.1 h01
  exact ⟨inRange_of_all a1 16#32 16 (by decide) _ _ _ _ h1, inRange_of_all a2 64#32 64 (by decide) _ _ _ _ h2⟩

end Cert.PreRange

end
-- ==== Proof.lean ====
/-
  The certificate: a fused kernel for per-row adapter products against its gather-and-matmul reference.

  Each of 2048 rows `x R` (4096 wide) carries an adapter id; rows 0 … 1023 index a table of 16 matrices [4096, 64],
  rows 1024 … 2047 a table of 64 matrices [4096, 16]. The reference gathers each row's matrix and multiplies:
      y R j = ∑ d, x R d · A (id R) d j.
  The kernel lays each table's matrices side by side as one [4096, 1024] matrix (adapter e's column j on lane
  e · r + j, r = 64 or 16), multiplies a block of rows by it, keeps of each row only the lanes whose adapter
  (lane shifted right by log₂ r) is the row's id, and folds the lanes onto their columns (lane masked by r − 1) with
  a 0/1 matrix. With the id in [0, n) exactly one lane survives both tests for each column, and that lane holds
  the reference's sum; no other term contributes, since 0 · y = 0 for every extended real. Outside [0, n) the two
  programs differ (the reference wraps a negative id and fills an out-of-range row with the fill word, the kernel
  leaves zeros), so the precondition states the range of both id vectors.

  The frames of the two kernel programs are the frame proofs of the modules `FrameKernel` and `FrameKernelIdeal`; the
  reference's frame is its run with the results dropped. Nothing was rewritten by the ideal pass, so `preserves`
  is trivial. For `algebraic` both runs are read down to the same two arrays, `Cert.Spec.yLarge` and
  `Cert.Spec.ySmall` of the arguments.
-/
import proofs.«136345_g59459527246470_cont_9to1_m_1123_4_alg».proof.Defs
import proofs.«136345_g59459527246470_cont_9to1_m_1123_4_alg».proof.Proof.Gen.Kernel
import proofs.«136345_g59459527246470_cont_9to1_m_1123_4_alg».proof.Proof.Gen.KernelIdeal
import proofs.«136345_g59459527246470_cont_9to1_m_1123_4_alg».proof.Proof.Gen.ReferenceIdeal
import proofs.«136345_g59459527246470_cont_9to1_m_1123_4_alg».proof.Proof.Gen.Pre_finite_inputs
import proofs.«136345_g59459527246470_cont_9to1_m_1123_4_alg».proof.Proof.FrameKernel
import proofs.«136345_g59459527246470_cont_9to1_m_1123_4_alg».proof.Proof.FrameKernelIdeal
import proofs.«136345_g59459527246470_cont_9to1_m_1123_4_alg».proof.Proof.KRun
import proofs.«136345_g59459527246470_cont_9to1_m_1123_4_alg».proof.Proof.KPay
import proofs.«136345_g59459527246470_cont_9to1_m_1123_4_alg».proof.Proof.KFinal
import proofs.«136345_g59459527246470_cont_9to1_m_1123_4_alg».proof.Proof.RefRun
import proofs.«136345_g59459527246470_cont_9to1_m_1123_4_alg».proof.Proof.RefVal
import proofs.«136345_g59459527246470_cont_9to1_m_1123_4_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run with its two results dropped. -/
theorem frame_ri : Cert.frame_ReferenceIdeal := fun m ρ _ =>
  (θ_run Cert.ReferenceIdeal.defs _ _).mono (fun _ h c => (h c).2.2) (Cert.ReferenceIdeal.RRun.run (F := Ideal) m ρ)

theorem preserves : Cert.preserves_Kernel_KernelIdeal := trivial

/-- Both programs end with `yLarge` and `ySmall` of the arguments: the kernel's run read through its host tail, its
    blocks and its payload; the reference's through its gathers and batched products; each under the id ranges the
    precondition states. -/
theorem algebraic : Cert.algebraic_KernelIdeal_ReferenceIdeal := by
  intro m ρ m' ρ' hpre hagree
  have hr : ∀ c : Dev Cert.KernelIdeal.nD,
      Cert.Spec.InRange 16 (m ((c.tc : Thread Cert.KernelIdeal.nD Cert.KernelIdeal.τ).loc Cert.KernelIdeal.main_arg1))
      ∧ Cert.Spec.InRange 64 (m ((c.tc : Thread Cert.KernelIdeal.nD Cert.KernelIdeal.τ).loc Cert.KernelIdeal.main_arg2)) :=
    fun c => Cert.PreRange.ids_in_range _ _ _ _ _ (hpre c)
  refine ⟨fun c => Cert.Spec.yLarge (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => Cert.Spec.ySmall (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)), ?_, ?_⟩
  · exact (θ_run Cert.KernelIdeal.defs _ _).mono (fun _ h c =>
      ⟨(h c).1.trans (Cert.KernelIdeal.KFinal.resLarge_out _ _ _ _ _ (hr c).1),
        (h c).2.1.trans (Cert.KernelIdeal.KFinal.resSmall_out _ _ _ _ _ (hr c).2), (h c).2.2⟩)
      (Cert.KernelIdeal.KRun.run m ρ Cert.KernelIdeal.KPay.pay_apply)
  · refine (θ_run Cert.ReferenceIdeal.defs _ _).mono (fun _ h c => ?_) (Cert.ReferenceIdeal.RRun.run (F := Ideal) m' ρ')
    obtain ⟨a0, a1, a2, a3, a4⟩ := hagree c
    refine ⟨(h c).1.trans ?_, (h c).2.1.trans ?_, (h c).2.2⟩
    · rw [a0, a1, a3]
      exact Cert.ReferenceIdeal.RVal.outLarge_eq _ _ _ (hr c).1
    · rw [a0, a2, a4]
      exact Cert.ReferenceIdeal.RVal.outSmall_eq _ _ _ (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
